-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x256 .f32) (main_arg1 : IVec S2x3200000 32) (main_arg2 : FVec F S256x64 .f32) (main_arg3 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x64 : Shape := ⟨2, ![100000, 64]⟩
abbrev S5000x256 : Shape := ⟨2, ![5000, 256]⟩
abbrev S5000x1 : Shape := ⟨2, ![5000, 1]⟩
abbrev S5000x64 : Shape := ⟨2, ![5000, 64]⟩
abbrev S3300000x64 : Shape := ⟨2, ![3300000, 64]⟩
abbrev S1x64 : Shape := ⟨2, ![1, 64]⟩

abbrev nBuf : Space → Nat
  | .hbm => 44
  | .vmem => 14
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x64, .f32⟩
  | .hbm, ⟨3, _⟩ => ⟨S64, .f32⟩
  | .hbm, ⟨4, _⟩ => ⟨S100000, .i32⟩
  | .hbm, ⟨5, _⟩ => ⟨S1x3200000, .i32⟩
  | .hbm, ⟨6, _⟩ => ⟨S3200000, .i32⟩
  | .hbm, ⟨7, _⟩ => ⟨S3300000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S_, .i32⟩
  | .hbm, ⟨12, _⟩ => ⟨S3300000, .i32⟩
  | .hbm, ⟨13, _⟩ => ⟨S_, .i32⟩
  | .hbm, ⟨14, _⟩ => ⟨S100000, .i32⟩
  | .hbm, ⟨15, _⟩ => ⟨S3300000x1, .i32⟩
  | .hbm, ⟨16, _⟩ => ⟨S100000, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x64, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000x64, .f32⟩
  | .hbm, ⟨37, _⟩ => ⟨S_, .f32⟩
  | .hbm, ⟨38, _⟩ => ⟨S100000x64, .f32⟩
  | .hbm, ⟨39, _⟩ => ⟨S3300000x1, .i32⟩
  | .hbm, ⟨40, _⟩ => ⟨S100000x64, .f32⟩
  | .hbm, ⟨41, _⟩ => ⟨S100000x1, .f32⟩
  | .hbm, ⟨42, _⟩ => ⟨S1x64, .f32⟩
  | .hbm, ⟨43, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  scatter_S100000_S3300000x1_S3300000_n_0_0_1_wf : ScatterDims.WF S100000 S3300000x1 S3300000 [] [0] [0] 1
  dot_S5000x256_S256x64_S5000x64_1_0_0_1_n_n_wf : DotDims.WF S5000x256 S256x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S100000x64 : Shape := ⟨2, ![100000, 64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩

abbrev nBuf : Space → Nat
  | .hbm => 64
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x64, .f32⟩
  | .hbm, ⟨3, _⟩ => ⟨S64, .f32⟩
  | .hbm, ⟨4, _⟩ => ⟨S100000x64, .f32⟩
  | .hbm, ⟨5, _⟩ => ⟨S100000, .i32⟩
  | .hbm, ⟨6, _⟩ => ⟨S1x3200000, .i32⟩
  | .hbm, ⟨7, _⟩ => ⟨S3200000, .i32⟩
  | .hbm, ⟨8, _⟩ => ⟨S3300000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S_, .f32⟩
  | .hbm, ⟨13, _⟩ => ⟨S3300000, .f32⟩
  | .hbm, ⟨14, _⟩ => ⟨S_, .f32⟩
  | .hbm, ⟨15, _⟩ => ⟨S100000, .f32⟩
  | .hbm, ⟨16, _⟩ => ⟨S3300000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S_, .i32⟩
  | .hbm, ⟨46, _⟩ => ⟨S3300000, .i32⟩
  | .hbm, ⟨47, _⟩ => ⟨S3300000, .i1⟩
  | .hbm, ⟨48, _⟩ => ⟨S_, .i32⟩
  | .hbm, ⟨49, _⟩ => ⟨S3300000, .i32⟩
  | .hbm, ⟨50, _⟩ => ⟨S3300000, .i32⟩
  | .hbm, ⟨51, _⟩ => ⟨S3300000, .i32⟩
  | .hbm, ⟨52, _⟩ => ⟨S3300000x1, .i32⟩
  | .hbm, ⟨53, _⟩ => ⟨S3300000x64, .f32⟩
  | .hbm, ⟨54, _⟩ => ⟨S3300000x1, .f32⟩
  | .hbm, ⟨55, _⟩ => ⟨S3300000x64, .f32⟩
  | .hbm, ⟨56, _⟩ => ⟨S3300000x64, .f32⟩
  | .hbm, ⟨57, _⟩ => ⟨S_, .f32⟩
  | .hbm, ⟨58, _⟩ => ⟨S100000x64, .f32⟩
  | .hbm, ⟨59, _⟩ => ⟨S3300000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x64_S100000x64_1_0_0_1_n_n_wf : DotDims.WF S100000x256 S256x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.RefValue.lean ====
/-
  The reference's result as one function of the four arguments, with its parts named: the endpoint arrays, the
  in-degree (a float count of the edges landing on a node), the degree factor `dinv`, the per-edge normalisation
  `dinv[src] · dinv[dst]`, and the scatter-add of `h[src] · norm` into the destination rows, plus the bias.
-/
import proofs.«162518_j25056839205779_2_alg».proof.Proof.RefRunP
import Idealize.ShloMosaic.PureOps.Ideal
import Idealize.ShloMosaic.PureOps.Ideal.Laws

set_option maxRecDepth 16384

noncomputable section

namespace Cert.ReferenceIdeal.RefVal

open Cert.ReferenceIdeal Cert.ReferenceIdeal.Gen Idealize.ShloMosaic Idealize.ShloMosaic.TcCoe Idealize.SL.Sem

/-- The destination endpoint of every edge: the adjacency's second row, then the self-loops. -/
def dstOf (adj : S2x3200000.Idx → BitVec 32) : S3300000.Idx → BitVec 32 :=
  concatenate S3300000 0 [⟨S3200000, shapeCast S3200000 (extractStridedSlice S1x3200000 ![1, 0] adj slices_S2x3200000_S1x3200000_1_0) shapeCasts_S1x3200000_S3200000⟩, ⟨S100000, iotaInDim S100000 32 0⟩] concatenates_S3200000_S100000_S3300000_d0
/-- The source endpoint of every edge: the adjacency's first row, then the self-loops. -/
def srcOf (adj : S2x3200000.Idx → BitVec 32) : S3300000.Idx → BitVec 32 :=
  concatenate S3300000 0 [⟨S3200000, shapeCast S3200000 (extractStridedSlice S1x3200000 ![0, 0] adj slices_S2x3200000_S1x3200000_0_0) shapeCasts_S1x3200000_S3200000⟩, ⟨S100000, iotaInDim S100000 32 0⟩] concatenates_S3200000_S100000_S3300000_d0
/-- An index array as a column of start indices. -/
def colIdx (v : S3300000.Idx → BitVec 32) : S3300000x1.Idx → BitVec 32 :=
  broadcastInDim S3300000x1 ![0] bcast_S3300000_S3300000x1_0 v
/-- A negative index counts from the end. -/
def wrapIdx (v : S3300000.Idx → BitVec 32) : S3300000.Idx → BitVec 32 :=
  select (cmpi .slt v (broadcastInDim S3300000 ![] bcast_S_S3300000 (constantI S_ 32 0#32)))
    (addi v (broadcastInDim S3300000 ![] bcast_S_S3300000 (constantI S_ 32 100000#32))) v
/-- The in-degree, counted in floats. -/
def degR (adj : S2x3200000.Idx → BitVec 32) : FVec Ideal S100000 .f32 :=
  Host.scatterAdd (F := Ideal) scatter_S100000_S3300000x1_S3300000_n_0_0_1
    (broadcastInDim S100000 ![] bcast_S_S100000 (constant (F := Ideal) S_ .f32 0x00000000#32)) (colIdx (dstOf adj))
    (broadcastInDim S3300000 ![] bcast_S_S3300000 (constant (F := Ideal) S_ .f32 0x3F800000#32))
/-- The degree factor: the reciprocal square root where the degree is positive, zero elsewhere. -/
def dinvOf (deg : FVec Ideal S100000 .f32) : FVec Ideal S100000 .f32 :=
  select (cmpf .ogt deg (broadcastInDim S100000 ![] bcast_S_S100000 (constant (F := Ideal) S_ .f32 0x00000000#32)))
    (Host.rsqrt (F := Ideal) deg)
    (broadcastInDim S100000 ![] bcast_S_S100000 (id (constant (F := Ideal) S_ .f32 0x00000000#32)))
/-- The per-edge normalisation: the factor at the source times the factor at the destination. -/
def normOf (dinv : FVec Ideal S100000 .f32) (src dst : S3300000.Idx → BitVec 32) : FVec Ideal S3300000 .f32 :=
  mulf (Host.gather gather_S100000_S3300000x1_S3300000_n_0_n_n_0_1_1 dinv (colIdx (wrapIdx src)))
    (Host.gather gather_S100000_S3300000x1_S3300000_n_0_n_n_0_1_1 dinv (colIdx (wrapIdx dst)))
/-- The messages: the rows of `h` at the source endpoints, each scaled by its edge's normalisation. -/
def msgsOf (h : FVec Ideal S100000x64 .f32) (nrm : FVec Ideal S3300000 .f32) (src : S3300000.Idx → BitVec 32) :
    FVec Ideal S3300000x64 .f32 :=
  mulf (Host.gather gather_S100000x64_S3300000x1_S3300000x64_1_0_n_n_0_1_164 h (colIdx (wrapIdx src)))
    (broadcastInDim S3300000x64 ![0, 1] bcast_S3300000x1_S3300000x64_0_1
      (broadcastInDim S3300000x1 ![0] bcast_S3300000_S3300000x1_0 nrm))

/-- The reference's result as one function of its four arguments. -/
def refVal (x : FVec Ideal S100000x256 .f32) (adj : S2x3200000.Idx → BitVec 32) (w : FVec Ideal S256x64 .f32)
    (b : FVec Ideal S64 .f32) : FVec Ideal S100000x64 .f32 :=
  addf
    (Host.scatterAdd (F := Ideal) scatter_S100000x64_S3300000x1_S3300000x64_1_0_0_1
      (broadcastInDim S100000x64 ![] bcast_S_S100000x64 (constant (F := Ideal) S_ .f32 0x00000000#32)) (colIdx (dstOf adj))
      (msgsOf (Host.dotGeneral dot_S100000x256_S256x64_S100000x64_1_0_0_1_n_n none x w)
        (normOf (dinvOf (degR adj)) (srcOf adj) (dstOf adj)) (srcOf adj)))
    (broadcastInDim S100000x64 ![0, 1] bcast_S1x64_S100000x64_0_1 (broadcastInDim S1x64 ![1] bcast_S64_S1x64_1 b))

/-- The run's composed term is `refVal` of the arguments: the same operations, with the repeated parts named. -/
theorem res_eq (m : (ℓ : Loc nD τ sig) → Buf (Elt Ideal) ℓ) (c : Dev nD) :
    ValueP.res_main_v46 (F := Ideal) m c
      = refVal (m ((c.tc : Thread nD τ).loc main_arg0)) (m ((c.tc : Thread nD τ).loc main_arg1))
          (m ((c.tc : Thread nD τ).loc main_arg2)) (m ((c.tc : Thread nD τ).loc main_arg3)) := by
  unfold ValueP.res_main_v46
  rfl

end Cert.ReferenceIdeal.RefVal

end
-- ==== Proof.KernelRun.lean ====
/-
  The idealized kernel's run with its result array NAMED. The program is two pipelined regions among stretches of
  host operations; at every boundary between them each unscoped buffer holds a known function of the launch memory
  (the fold `W0 … W6` of the generated frame module). The run below ends with the result buffer at what the second
  region's write-backs leave in its output window's array, and with the argument arrays as launched.
-/
import proofs.«162518_j25056839205779_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the second region's output window's array. -/
theorem W6_result (c : Dev nD) : W6 m ρ c (Proc.devRef .tc main_v30) = (dat1 (V5 m ρ) c).arrAt 3 cfg1.N :=
  W6_arr m ρ c 3

set_option backward.isDefEq.respectTransparency.types false in
/-- Every weakly fair execution of the idealized kernel terminates, nothing faulting, with the result buffer at the
    array the second region's write-backs leave and the four argument arrays as launched. -/
theorem run_result : θ_run defs (onTc (τ := τ) (main (F := F))) ⟨m, fun _ => 0, ρ⟩ (fun r => ∀ c : Dev nD,
      r.2.mem ((c.tc : Thread nD τ).loc main_v30) = (dat1 (V5 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v30 (by decide))).trans (W6_result m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.RunValue

end
-- ==== Proof.LibDotSum.lean ====
/-
  A matrix product with one contracted axis, as a plain sum over that axis.
-/
import Idealize.ShloMosaic.PureOps.Ideal
import Idealize.ShloMosaic.PureOps.Ideal.Laws
import Idealize.ShloMosaic.Lib.ValueIdx

noncomputable section

namespace Idealize.ShloMosaic.DotSum

open Idealize.ShloMosaic Idealize.ShloMosaic.ValueIdx

/-- For dimension numbers that contract the one shared axis of an `[M, K]` and a `[K, N]` operand — the left
    operand read at `(row, q)`, the right at `(q, column)` — the sum of products over the contraction index is
    the sum over `k < K` of `x (row, k) · w (k, column)`. -/
theorem sum_contr_eq {M K N : Nat} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (x : (⟨2, ![M, K]⟩ : Shape).Idx → EReal) (w : (⟨2, ![K, N]⟩ : Shape).Idx → EReal)
    (j : (⟨2, ![M, N]⟩ : Shape).Idx) :
    ∑ q : D.contr.Idx, x (D.lhsIdx j q) * w (D.rhsIdx j q) = ∑ k : Fin K, x (ix2 (j 0) k) * w (ix2 k (j 1)) := by
  rw [← Equiv.sum_comp (contrEquiv1 D K hr hs).symm (fun q => x (D.lhsIdx j q) * w (D.rhsIdx j q))]
  refine Finset.sum_congr rfl fun k _ => ?_
  have e := contrEquiv1_symm_val D K hr hs k
  congr 1
  · refine congrArg x (funext fun a => Fin.ext ?_)
    match a with
    | ⟨0, _⟩ => exact hl0 j _
    | ⟨1, _⟩ => exact (hl1 j _).trans e
  · refine congrArg w (funext fun a => Fin.ext ?_)
    match a with
    | ⟨0, _⟩ => exact (hr0 j _).trans e
    | ⟨1, _⟩ => exact hr1 j _

end Idealize.ShloMosaic.DotSum

end
-- ==== Proof.KernelMatmulScale.lean ====
/-
  The first pipelined region, read as a whole-array function. Each of its twenty grid points takes 5000 rows of
  `x`, the whole of `W` and the matching 5000 entries of the degree factor (a column), and writes 5000 rows of the
  product: entry `(r, q)` is `(Σ_k x[r, k] · W[k, q]) · dinv[r]` (the roundings to bf16 on the way into the
  matrix unit are identities on extended reals, and the accumulator starts at zero). The blocks tile the result.
-/
import proofs.«162518_j25056839205779_2_alg».proof.Proof.Gen.KernelIdeal.Frame
import proofs.«162518_j25056839205779_2_alg».proof.Proof.LibDotSum
import Idealize.ShloMosaic.Lib.Pipeline.Value
import Idealize.ShloMosaic.Lib.ValueIdx
import Idealize.ShloMosaic.PureOps.Ideal.Laws

set_option maxRecDepth 16384

noncomputable section

namespace Cert.KernelIdeal.MatmulScale

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The column entry of a row: position `(r, 0)` of an `[n, 1]` array for the row `r` of a rank-2 index. -/
abbrev rowOf {n k : Nat} (i : (⟨2, ![n, k]⟩ : Shape).Idx) : (⟨2, ![n, 1]⟩ : Shape).Idx := ix2 (i 0) (0 : Fin 1)

/-- A row of `x` against a column of `w`. -/
def dotAt {M : Nat} (x : (⟨2, ![M, 256]⟩ : Shape).Idx → EReal) (w : S256x64.Idx → EReal)
    (i : (⟨2, ![M, 64]⟩ : Shape).Idx) : EReal :=
  ∑ k : Fin 256, x (ix2 (i 0) k) * w (ix2 k (i 1))

/-- Entry `(r, q)`: the row of `x` against the column of `w`, times the row's factor. -/
def matmulScale (x : S100000x256.Idx → EReal) (w : S256x64.Idx → EReal) (d2 : S100000x1.Idx → EReal) :
    S100000x64.Idx → EReal :=
  fun i => dotAt x w i * d2 (rowOf i)

theorem hz : (![0, 0] : Fin 2 → Nat) = fun _ => 0 := funext fun a => by fin_cases a <;> rfl

/-! ### The block product's operand indices -/

theorem lhs0 (j : S5000x64.Idx) (q : dot_S5000x256_S256x64_S5000x64_1_0_0_1_n_n.contr.Idx) :
    (dot_S5000x256_S256x64_S5000x64_1_0_0_1_n_n.lhsIdx j q 0).val = (j 0).val := by
  unfold DotDims.lhsIdx
  rw [dif_neg (show ¬(0 : Fin S5000x256.rank) ∈ dot_S5000x256_S256x64_S5000x64_1_0_0_1_n_n.lhsBatch by decide),
    dif_pos (show (0 : Fin S5000x256.rank) ∈ dot_S5000x256_S256x64_S5000x64_1_0_0_1_n_n.lhsNonContracting by decide)]
  rfl
theorem lhs1 (j : S5000x64.Idx) (q : dot_S5000x256_S256x64_S5000x64_1_0_0_1_n_n.contr.Idx) :
    (dot_S5000x256_S256x64_S5000x64_1_0_0_1_n_n.lhsIdx j q 1).val = (q ⟨0, by decide⟩).val :=
  dot_S5000x256_S256x64_S5000x64_1_0_0_1_n_n.lhsIdx_val_of_single rfl j q
theorem rhs0 (j : S5000x64.Idx) (q : dot_S5000x256_S256x64_S5000x64_1_0_0_1_n_n.contr.Idx) :
    (dot_S5000x256_S256x64_S5000x64_1_0_0_1_n_n.rhsIdx j q 0).val = (q ⟨0, by decide⟩).val :=
  dot_S5000x256_S256x64_S5000x64_1_0_0_1_n_n.rhsIdx_val_of_single rfl j q
theorem rhs1 (j : S5000x64.Idx) (q : dot_S5000x256_S256x64_S5000x64_1_0_0_1_n_n.contr.Idx) :
    (dot_S5000x256_S256x64_S5000x64_1_0_0_1_n_n.rhsIdx j q 1).val = (j 1).val := by
  unfold DotDims.rhsIdx
  rw [dif_neg (show ¬(1 : Fin S256x64.rank) ∈ dot_S5000x256_S256x64_S5000x64_1_0_0_1_n_n.rhsBatch by decide),
    dif_pos (show (1 : Fin S256x64.rank) ∈ dot_S5000x256_S256x64_S5000x64_1_0_0_1_n_n.rhsNonContracting by decide)]
  rfl

/-- The body's arithmetic at an entry of its block. -/
theorem pay_apply (x0 : Vec Ideal S5000x256 .f32) (x1 : Vec Ideal S256x64 .f32) (x2 : Vec Ideal S5000x1 .f32)
    (j : S5000x64.Idx) : k0_pay1 x0 x1 x2 j = dotAt x0 x1 j * x2 (rowOf j) := by
  unfold k0_pay1
  simp only [shapeCast_self]
  rw [mulf_apply]
  rw [broadcastTo_apply x2 _ j (rowOf j) (fun a => by
        match a with
        | ⟨0, _⟩ => rfl
        | ⟨1, _⟩ => rfl)]
  refine congrArg (· * x2 (rowOf j)) ?_
  refine (Ideal.matmul_constant_zero_apply dot_S5000x256_S256x64_S5000x64_1_0_0_1_n_n none _ _ j).trans ?_
  exact DotSum.sum_contr_eq dot_S5000x256_S256x64_S5000x64_1_0_0_1_n_n rfl rfl lhs0 lhs1 rhs0 rhs1 x0 x1 j

/-- The printed index maps over the twenty points. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (0 : Fin 2) = t.val
    ∧ win0_3.index t (1 : Fin 2) = 0 :=
  (by decide +kernel : ∀ t : Fin grid0.N, _)

/-- A row sum over a block of `x` is the row sum over `x`, when the block's entries are `x`'s. -/
theorem combine (X : S100000x256.Idx → EReal) (W : S256x64.Idx → EReal) (D : S100000x1.Idx → EReal)
    (x0 : S5000x256.Idx → EReal) (x1 : S256x64.Idx → EReal) (d : EReal) (j : S5000x64.Idx) (i : S100000x64.Idx)
    (hx : ∀ k : Fin 256, x0 (ix2 (j 0) k) = X (ix2 (i 0) k)) (hw : ∀ k : Fin 256, x1 (ix2 k (j 1)) = W (ix2 k (i 1)))
    (hd : d = D (rowOf i)) : dotAt x0 x1 j * d = matmulScale X W D i := by
  subst hd
  unfold matmulScale dotAt
  refine congrArg (· * D (rowOf i)) (Finset.sum_congr rfl fun k _ => ?_)
  rw [hx k, hw k]

/-- What point `t` writes back is block `t` of `matmulScale` of the arrays the region found. -/
theorem flushed_eq (c : Dev nD) (t : Fin cfg0.N) :
    (dat0 V c).flushed 3 t = ((cfg0.win 3).blk t).view.read (Elt Ideal)
      (matmulScale (V c main_arg0) (V c main_arg2) (V c main_v16)) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x64) hz, View.ld_unit_zero (S := S5000x1) hz]
  obtain ⟨e0, e1, e2, e3, e4, e5, e6, e7⟩ := idx_facts t
  funext j
  refine (pay_apply (iblk0 V c 0 t) (iblk0 V c 1 t) (iblk0 V c 2 t) j).trans ?_
  have h0 : ∀ k : Fin 256, ((cfg0.win 0).blk t).view.emb (ix2 (j 0) k) = ix2 ((((cfg0.win 3).blk t).view.emb j) 0) k := by
    intro k; funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 256 + 1 * k.val = k.val; omega
  have h1 : ∀ k : Fin 256, ((cfg0.win 1).blk t).view.emb (ix2 k (j 1)) = ix2 k ((((cfg0.win 3).blk t).view.emb j) 1) := by
    intro k; funext a; apply Fin.ext
    match a with
    | ⟨0, _⟩ => show win0_1.index t (0 : Fin 2) * 256 + 1 * k.val = k.val; omega
    | ⟨1, _⟩ => show win0_1.index t (1 : Fin 2) * 64 + 1 * (j 1).val = win0_3.index t (1 : Fin 2) * 64 + 1 * (j 1).val; omega
  have h2 : ((cfg0.win 2).blk t).view.emb (rowOf j) = rowOf (((cfg0.win 3).blk t).view.emb j) := by
    funext a; apply Fin.ext
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega
  exact combine (V c main_arg0) (V c main_arg2) (V c main_v16) _ _ _ j (((cfg0.win 3).blk t).view.emb j)
    (fun k => show iblk0 V c 0 t (ix2 (j 0) k) = V c main_arg0 (ix2 ((((cfg0.win 3).blk t).view.emb j) 0) k) from
      congrArg (V c main_arg0) (h0 k))
    (fun k => show iblk0 V c 1 t (ix2 k (j 1)) = V c main_arg2 (ix2 k ((((cfg0.win 3).blk t).view.emb j) 1)) from
      congrArg (V c main_arg2) (h1 k))
    (show iblk0 V c 2 t (rowOf j) = V c main_v16 (rowOf (((cfg0.win 3).blk t).view.emb j)) from congrArg (V c main_v16) h2)

/-- An index of the product array is in point `t`'s block iff each coordinate is in the block's range. -/
theorem mem_blk (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v17).slice (win0_3.rect t)).set ↔ _
  rw [View.set_slice_whole, Rect.mem_set_unit]
  exact Iff.rfl

/-- Every row of the product lies in the block of the point `row / 5000`. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨e0, e1, e2, e3, e4, e5, e6, e7⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- After the region the product array is `matmulScale` of the arrays the region found. -/
theorem final (c : Dev nD) :
    (dat0 V c).arrAt 3 cfg0.N = matmulScale (V c main_arg0) (V c main_arg2) (V c main_v16) :=
  (dat0 V c).arrAt_eq_of_cover 3 (matmulScale (V c main_arg0) (V c main_arg2) (V c main_v16))
    (fun t _ => flushed_eq V c t) cover

end Cert.KernelIdeal.MatmulScale

end
-- ==== Proof.KernelScaleBias.lean ====
/-
  The second pipelined region, read as a whole-array function. Each of its twenty grid points takes 5000 rows of
  the aggregated array, the matching 5000 entries of the degree factor (a column) and the bias row, and writes
  5000 rows of the result: row by row, `agg · dinv + b`. The blocks tile the result array, so after the region
  the result array is that one function of the three arrays the region found.
-/
import proofs.«162518_j25056839205779_2_alg».proof.Proof.Gen.KernelIdeal.Frame
import Idealize.ShloMosaic.Lib.Pipeline.Value
import Idealize.ShloMosaic.Lib.ValueIdx

set_option maxRecDepth 16384

noncomputable section

namespace Cert.KernelIdeal.ScaleBias

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The column entry of a row: position `(r, 0)` of an `[n, 1]` array for the row `r` of a rank-2 index. -/
abbrev rowOf {n k : Nat} (i : (⟨2, ![n, k]⟩ : Shape).Idx) : (⟨2, ![n, 1]⟩ : Shape).Idx := ix2 (i 0) (0 : Fin 1)
/-- The row entry of a column: position `(0, q)` of a `[1, k]` array for the column `q` of a rank-2 index. -/
abbrev colOf {n k : Nat} (i : (⟨2, ![n, k]⟩ : Shape).Idx) : (⟨2, ![1, k]⟩ : Shape).Idx := ix2 (0 : Fin 1) (i 1)

/-- Row by row: the aggregated entry times the row's degree factor, plus the column's bias. -/
def scaleBias (agg : S100000x64.Idx → EReal) (d2 : S100000x1.Idx → EReal) (b2 : S1x64.Idx → EReal) :
    S100000x64.Idx → EReal :=
  fun i => agg i * d2 (rowOf i) + b2 (colOf i)

/-- Three entries that are the three arrays' entries at one result index combine to `scaleBias` there. -/
theorem combine (A : S100000x64.Idx → EReal) (B : S100000x1.Idx → EReal) (C : S1x64.Idx → EReal) (a b c : EReal)
    (i : S100000x64.Idx) (ha : a = A i) (hb : b = B (rowOf i)) (hc : c = C (colOf i)) :
    a * b + c = scaleBias A B C i := by
  subst ha hb hc; rfl

theorem hz : (![0, 0] : Fin 2 → Nat) = fun _ => 0 := funext fun a => by fin_cases a <;> rfl

/-- The body's arithmetic at an entry of its block: the aggregated entry times the row's factor plus the
    column's bias (the casts are identities, the two broadcasts read a column and a row). -/
theorem pay_apply (x2 : Vec Ideal S1x64 .f32) (x0 : Vec Ideal S5000x64 .f32) (x1 : Vec Ideal S5000x1 .f32)
    (j : S5000x64.Idx) : k1_pay1 x2 x0 x1 j = x0 j * x1 (rowOf j) + x2 (colOf j) := by
  unfold k1_pay1
  simp only [shapeCast_self]
  rw [addf_apply, mulf_apply]
  rw [broadcastTo_apply x1 _ j (rowOf j) (fun a => by
        match a with
        | ⟨0, _⟩ => rfl
        | ⟨1, _⟩ => rfl),
      broadcastTo_apply x2 _ j (colOf j) (fun a => by
        match a with
        | ⟨0, _⟩ => rfl
        | ⟨1, _⟩ => rfl)]

/-- The printed index maps over the twenty points: the aggregated array's and the factor's blocks move with the
    result's, the bias is one block, and point `t` writes block `t`. -/
theorem idx_facts : ∀ t : Fin cfg1.N, win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- What point `t` writes back is block `t` of `scaleBias` of the arrays the region found. -/
theorem flushed_eq (c : Dev nD) (t : Fin cfg1.N) :
    (dat1 V c).flushed 3 t = ((cfg1.win 3).blk t).view.read (Elt Ideal)
      (scaleBias (V c main_v27) (V c main_v28) (V c main_v29)) := by
  show (cfg1.win 3).cut (grid1.coords t) ((dat1 V c).after 3 t) = _
  rw [after1_3]
  unfold out1_3
  rw [View.canon_unit_zero hz]
  simp only [View.ld_unit_zero (S := S5000x64) hz, View.ld_unit_zero (S := S5000x1) hz, View.ld_unit_zero (S := S1x64) hz]
  obtain ⟨e0, e1, e2, e3, e4, e5, e6, e7⟩ := idx_facts t
  funext j
  refine (pay_apply (iblk1 V c 2 t) (iblk1 V c 0 t) (iblk1 V c 1 t) j).trans ?_
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * (j 1).val = win1_3.index t (1 : Fin 2) * 64 + 1 * (j 1).val; omega
  have h1 : ((cfg1.win 1).blk t).view.emb (rowOf j) = rowOf (((cfg1.win 3).blk t).view.emb j) := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 1 + 1 * 0 = 0; omega
  have h2 : ((cfg1.win 2).blk t).view.emb (colOf j) = colOf (((cfg1.win 3).blk t).view.emb j) := by
    funext a; apply Fin.ext
    match a with
    | ⟨0, _⟩ => show win1_2.index t (0 : Fin 2) * 1 + 1 * 0 = 0; omega
    | ⟨1, _⟩ => show win1_2.index t (1 : Fin 2) * 64 + 1 * (j 1).val = win1_3.index t (1 : Fin 2) * 64 + 1 * (j 1).val; omega
  exact combine (V c main_v27) (V c main_v28) (V c main_v29) _ _ _ (((cfg1.win 3).blk t).view.emb j)
    (show iblk1 V c 0 t j = V c main_v27 (((cfg1.win 3).blk t).view.emb j) from congrArg (V c main_v27) h0)
    (show iblk1 V c 1 t (rowOf j) = V c main_v28 (rowOf (((cfg1.win 3).blk t).view.emb j)) from congrArg (V c main_v28) h1)
    (show iblk1 V c 2 t (colOf j) = V c main_v29 (colOf (((cfg1.win 3).blk t).view.emb j)) from congrArg (V c main_v29) h2)

/-- An index of the result array is in point `t`'s block iff each coordinate is in the block's range. -/
theorem mem_blk (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v30).slice (win1_3.rect t)).set ↔ _
  rw [View.set_slice_whole, Rect.mem_set_unit]
  exact Iff.rfl

/-- Every row of the result lies in the block of the point `row / 5000`. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨e0, e1, e2, e3, e4, e5, e6, e7⟩ := idx_facts t
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- After the region the result array is `scaleBias` of the arrays the region found. -/
theorem final (c : Dev nD) :
    (dat1 V c).arrAt 3 cfg1.N = scaleBias (V c main_v27) (V c main_v28) (V c main_v29) :=
  (dat1 V c).arrAt_eq_of_cover 3 (scaleBias (V c main_v27) (V c main_v28) (V c main_v29))
    (fun t _ => flushed_eq V c t) cover

end Cert.KernelIdeal.ScaleBias

end
-- ==== Proof.KernelHost.lean ====
/-
  The idealized kernel's host side, and its result as ONE function of the four argument arrays.
  Before the first region the host builds, from the adjacency argument, the two edge-endpoint arrays (each row of the
  adjacency followed by the self-loops `0 … N-1`), the in-degree of every node (an integer count of the edges landing
  on it, converted to a float) and the degree factor `dinv = degree > 0 ? degree^(-1/2) : 0`. Between the regions it
  gathers the first region's product at the source endpoints and adds the gathered rows into their destination rows.
-/
import proofs.«162518_j25056839205779_2_alg».proof.Proof.Gen.KernelIdeal.Frame
import proofs.«162518_j25056839205779_2_alg».proof.Proof.KernelMatmulScale
import proofs.«162518_j25056839205779_2_alg».proof.Proof.KernelScaleBias
import Idealize.ShloMosaic.Lib.StableHlo.Run

set_option maxRecDepth 16384

noncomputable section

namespace Cert.KernelIdeal.HostVal

open Cert.KernelIdeal Cert.KernelIdeal.Gen Idealize.ShloMosaic Idealize.ShloMosaic.TcCoe Idealize.SL.Sem
open Idealize.ShloMosaic.StableHlo

/-- The destination endpoint of every edge: the adjacency's second row, then the self-loops. -/
def dstOf (adj : S2x3200000.Idx → BitVec 32) : S3300000.Idx → BitVec 32 :=
  concatenate S3300000 0 [⟨S3200000, shapeCast S3200000 (extractStridedSlice S1x3200000 ![1, 0] adj slices_S2x3200000_S1x3200000_1_0) shapeCasts_S1x3200000_S3200000⟩, ⟨S100000, iotaInDim S100000 32 0⟩] concatenates_S3200000_S100000_S3300000_d0
/-- The source endpoint of every edge: the adjacency's first row, then the self-loops. -/
def srcOf (adj : S2x3200000.Idx → BitVec 32) : S3300000.Idx → BitVec 32 :=
  concatenate S3300000 0 [⟨S3200000, shapeCast S3200000 (extractStridedSlice S1x3200000 ![0, 0] adj slices_S2x3200000_S1x3200000_0_0) shapeCasts_S1x3200000_S3200000⟩, ⟨S100000, iotaInDim S100000 32 0⟩] concatenates_S3200000_S100000_S3300000_d0
/-- An index array as a column of start indices. -/
def colIdx (v : S3300000.Idx → BitVec 32) : S3300000x1.Idx → BitVec 32 :=
  broadcastInDim S3300000x1 ![0] bcast_S3300000_S3300000x1_0 v
/-- A negative index counts from the end. -/
def wrapIdx (v : S3300000.Idx → BitVec 32) : S3300000.Idx → BitVec 32 :=
  select (cmpi .slt v (broadcastInDim S3300000 ![] bcast_S_S3300000 (constantI S_ 32 0#32)))
    (addi v (broadcastInDim S3300000 ![] bcast_S_S3300000 (constantI S_ 32 100000#32))) v
/-- The in-degree, counted in integers and converted. -/
def degK (adj : S2x3200000.Idx → BitVec 32) : FVec Ideal S100000 .f32 :=
  sitofp .f32 (Host.scatter scatter_S100000_S3300000x1_S3300000_n_0_0_1 IntOp.addi
    (broadcastInDim S100000 ![] bcast_S_S100000 (constantI S_ 32 0#32)) (colIdx (dstOf adj))
    (broadcastInDim S3300000 ![] bcast_S_S3300000 (constantI S_ 32 1#32)))
/-- The degree factor: the reciprocal square root where the degree is positive, zero elsewhere. -/
def dinvOf (deg : FVec Ideal S100000 .f32) : FVec Ideal S100000 .f32 :=
  select (cmpf .ogt deg (broadcastInDim S100000 ![] bcast_S_S100000 (constant (F := Ideal) S_ .f32 0x00000000#32)))
    (Host.rsqrt (F := Ideal) deg)
    (broadcastInDim S100000 ![] bcast_S_S100000 (id (constant (F := Ideal) S_ .f32 0x00000000#32)))
/-- A length-`N` array as a column. -/
def col1 (d : FVec Ideal S100000 .f32) : FVec Ideal S100000x1 .f32 := shapeCast S100000x1 d shapeCasts_S100000_S100000x1
/-- The bias as a row. -/
def row1 (b : FVec Ideal S64 .f32) : FVec Ideal S1x64 .f32 := shapeCast S1x64 b shapeCasts_S64_S1x64
/-- Gather the rows of `hs` at the source endpoints and add each into its destination row. -/
def aggOf (hs : FVec Ideal S100000x64 .f32) (src dst : S3300000.Idx → BitVec 32) : FVec Ideal S100000x64 .f32 :=
  Host.scatterAdd (F := Ideal) scatter_S100000x64_S3300000x1_S3300000x64_1_0_0_1
    (broadcastInDim S100000x64 ![] bcast_S_S100000x64 (constant (F := Ideal) S_ .f32 0x00000000#32)) (colIdx dst)
    (Host.gather gather_S100000x64_S3300000x1_S3300000x64_1_0_n_n_0_1_164 hs (colIdx (wrapIdx src)))

/-- The kernel's result as one function of its four arguments. -/
def kernelVal (x : FVec Ideal S100000x256 .f32) (adj : S2x3200000.Idx → BitVec 32) (w : FVec Ideal S256x64 .f32)
    (b : FVec Ideal S64 .f32) : FVec Ideal S100000x64 .f32 :=
  ScaleBias.scaleBias
    (aggOf (MatmulScale.matmulScale x w (col1 (dinvOf (degK adj)))) (srcOf adj) (dstOf adj))
    (col1 (dinvOf (degK adj))) (row1 b)

/-! ### The buffers before the first region, from any launch contents -/

section Head
variable (U : Valuation τ sig (Elt Ideal))

theorem head_v16 : after hostOps0_2 (after hostOps0_1 (after hostOps0 U)) (Proc.devRef .tc main_v16)
    = col1 (dinvOf (degK (U (Proc.devRef .tc main_arg1)))) := by
  dsimp only [hostOps0, hostOps0_1, hostOps0_2]; after_results; rfl
theorem head_v15 : after hostOps0_2 (after hostOps0_1 (after hostOps0 U)) (Proc.devRef .tc main_v15)
    = dinvOf (degK (U (Proc.devRef .tc main_arg1))) := by
  dsimp only [hostOps0, hostOps0_1, hostOps0_2]; after_results; rfl
theorem head_v3 : after hostOps0_2 (after hostOps0_1 (after hostOps0 U)) (Proc.devRef .tc main_v3)
    = srcOf (U (Proc.devRef .tc main_arg1)) := by
  dsimp only [hostOps0, hostOps0_1, hostOps0_2]; after_results; rfl
theorem head_v6 : after hostOps0_2 (after hostOps0_1 (after hostOps0 U)) (Proc.devRef .tc main_v6)
    = dstOf (U (Proc.devRef .tc main_arg1)) := by
  dsimp only [hostOps0, hostOps0_1, hostOps0_2]; after_results; rfl
theorem head_arg0 : after hostOps0_2 (after hostOps0_1 (after hostOps0 U)) (Proc.devRef .tc main_arg0)
    = U (Proc.devRef .tc main_arg0) := by
  dsimp only [hostOps0, hostOps0_1, hostOps0_2]; after_results
theorem head_arg2 : after hostOps0_2 (after hostOps0_1 (after hostOps0 U)) (Proc.devRef .tc main_arg2)
    = U (Proc.devRef .tc main_arg2) := by
  dsimp only [hostOps0, hostOps0_1, hostOps0_2]; after_results
theorem head_arg3 : after hostOps0_2 (after hostOps0_1 (after hostOps0 U)) (Proc.devRef .tc main_arg3)
    = U (Proc.devRef .tc main_arg3) := by
  dsimp only [hostOps0, hostOps0_1, hostOps0_2]; after_results

/-! ### The buffers between the regions, from any contents at the first region's exit -/

theorem tail_v27 : after hostOps1 U (Proc.devRef .tc main_v27)
    = aggOf (U (Proc.devRef .tc main_v17)) (U (Proc.devRef .tc main_v3)) (U (Proc.devRef .tc main_v6)) := by
  dsimp only [hostOps1]; after_results; rfl
theorem tail_v28 : after hostOps1 U (Proc.devRef .tc main_v28) = col1 (U (Proc.devRef .tc main_v15)) := by
  dsimp only [hostOps1]; after_results; rfl
theorem tail_v29 : after hostOps1 U (Proc.devRef .tc main_v29) = row1 (U (Proc.devRef .tc main_arg3)) := by
  dsimp only [hostOps1]; after_results; rfl

end Head

end Cert.KernelIdeal.HostVal

end
-- ==== Proof.KernelValue.lean ====
/-
  The idealized kernel's run, with its result as one function of the four arguments.
  The second region leaves `agg · dinv + b` of the arrays it found; the aggregated array it found is the gather /
  scatter-add of what the first region left, `(x · W) · dinv`; and the degree factor and the endpoint arrays are
  the host's functions of the adjacency argument, unchanged through the first region.
-/
import proofs.«162518_j25056839205779_2_alg».proof.Proof.KernelRun
import proofs.«162518_j25056839205779_2_alg».proof.Proof.KernelHost

set_option maxRecDepth 16384

noncomputable section

namespace Cert.KernelIdeal.RunValue

open Cert.KernelIdeal Cert.KernelIdeal.Gen Cert.KernelIdeal.HostVal
open Idealize.ShloMosaic Idealize.ShloMosaic.TcCoe Idealize.SL.Sem

variable (m : (ℓ : Loc nD τ sig) → Buf (Elt Ideal) ℓ) (ρ : Dev nD → PrngReg)

/-- The degree factor as a column, as both regions find it. -/
theorem dinv_col (c : Dev nD) :
    W3 m ρ c (Proc.devRef .tc main_v15) = dinvOf (degK (m ((c : Thread nD τ).loc main_arg1))) :=
  head_v15 (W0 m ρ c)

/-- What the first region leaves in its output array. -/
theorem product (c : Dev nD) :
    W4 m ρ c (Proc.devRef .tc main_v17)
      = MatmulScale.matmulScale (m ((c : Thread nD τ).loc main_arg0)) (m ((c : Thread nD τ).loc main_arg2))
          (col1 (dinvOf (degK (m ((c : Thread nD τ).loc main_arg1))))) := by
  refine (W4_arr m ρ c 3).trans ?_
  rw [MatmulScale.final (V3 m ρ) c]
  have a0 : V3 m ρ c main_arg0 = m ((c : Thread nD τ).loc main_arg0) := head_arg0 (W0 m ρ c)
  have a2 : V3 m ρ c main_arg2 = m ((c : Thread nD τ).loc main_arg2) := head_arg2 (W0 m ρ c)
  have a16 : V3 m ρ c main_v16 = col1 (dinvOf (degK (m ((c : Thread nD τ).loc main_arg1)))) := head_v16 (W0 m ρ c)
  rw [a0, a2, a16]

/-- The aggregated array the second region finds. -/
theorem aggregated (c : Dev nD) :
    V5 m ρ c main_v27
      = aggOf (MatmulScale.matmulScale (m ((c : Thread nD τ).loc main_arg0)) (m ((c : Thread nD τ).loc main_arg2))
          (col1 (dinvOf (degK (m ((c : Thread nD τ).loc main_arg1))))))
        (srcOf (m ((c : Thread nD τ).loc main_arg1))) (dstOf (m ((c : Thread nD τ).loc main_arg1))) := by
  refine (tail_v27 (W4 m ρ c)).trans ?_
  have h3 : W4 m ρ c (Proc.devRef .tc main_v3) = srcOf (m ((c : Thread nD τ).loc main_arg1)) :=
    (W4_of_ne m ρ c main_v3 (by decide)).trans (head_v3 (W0 m ρ c))
  have h6 : W4 m ρ c (Proc.devRef .tc main_v6) = dstOf (m ((c : Thread nD τ).loc main_arg1)) :=
    (W4_of_ne m ρ c main_v6 (by decide)).trans (head_v6 (W0 m ρ c))
  rw [product m ρ c, h3, h6]

/-- The degree factor column the second region finds. -/
theorem factor (c : Dev nD) :
    V5 m ρ c main_v28 = col1 (dinvOf (degK (m ((c : Thread nD τ).loc main_arg1)))) := by
  refine (tail_v28 (W4 m ρ c)).trans ?_
  have h15 : W4 m ρ c (Proc.devRef .tc main_v15) = dinvOf (degK (m ((c : Thread nD τ).loc main_arg1))) :=
    (W4_of_ne m ρ c main_v15 (by decide)).trans (head_v15 (W0 m ρ c))
  rw [h15]

/-- The bias row the second region finds. -/
theorem biasRow (c : Dev nD) : V5 m ρ c main_v29 = row1 (m ((c : Thread nD τ).loc main_arg3)) := by
  refine (tail_v29 (W4 m ρ c)).trans ?_
  have h : W4 m ρ c (Proc.devRef .tc main_arg3) = m ((c : Thread nD τ).loc main_arg3) :=
    (W4_of_ne m ρ c main_arg3 (by decide)).trans (head_arg3 (W0 m ρ c))
  rw [h]

/-- The result array after the run is `kernelVal` of the four arguments. -/
theorem result_eq (c : Dev nD) :
    (dat1 (V5 m ρ) c).arrAt 3 cfg1.N
      = kernelVal (m ((c : Thread nD τ).loc main_arg0)) (m ((c : Thread nD τ).loc main_arg1))
          (m ((c : Thread nD τ).loc main_arg2)) (m ((c : Thread nD τ).loc main_arg3)) := by
  rw [ScaleBias.final (V5 m ρ) c, aggregated m ρ c, factor m ρ c, biasRow m ρ c]
  rfl

/-- Every weakly fair execution of the idealized kernel terminates, nothing faulting, with the result buffer at
    `kernelVal` of the four arguments and the arguments as launched. -/
theorem run : θ_run defs (onTc (τ := τ) (main (F := Ideal))) ⟨m, fun _ => 0, ρ⟩ (fun r => ∀ c : Dev nD,
      r.2.mem ((c.tc : Thread nD τ).loc main_v30)
        = kernelVal (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (run_result m ρ)

end Cert.KernelIdeal.RunValue

end
-- ==== Proof.LibScatterSum.lean ====
/-
  Counting with a scatter: an integer scatter-add of ones and the float scatter-add of ones both
  give, at each operand index, the number of updates that land there.
-/
import Idealize.ShloMosaic.PureOps.Ideal
import Idealize.ShloMosaic.PureOps.Ideal.Laws
import Idealize.ShloMosaic.Lib.ValueIdx
import Mathlib.Data.BitVec

namespace Idealize.ShloMosaic.ScatterSum

open Idealize.ShloMosaic

noncomputable section

/-- One step of the scatter fold with body `f`: the update numbered `n` in row-major order replaces the
    element at its result index by `f` of that element and the update, and is dropped when it lands outside. -/
def step {α : Type} {s si u : Shape} {w : Nat} (d : ScatterDims s si u) (f : α → α → α) (idx : IVec si w)
    (upd : u.Idx → α) (r : s.Idx → α) (n : Fin u.numel) : s.Idx → α :=
  match d.resultIdx? (u.rowMajor.symm n) idx with
  | some i => fun i' => if i' = i then f (r i) (upd (u.rowMajor.symm n)) else r i'
  | none => r

/-- The scatter is the left fold of `step` over all update numbers in increasing order. -/
theorem scatter_eq_foldl {α : Type} {s si u : Shape} {w : Nat} (d : ScatterDims s si u) (f : α → α → α)
    (x : s.Idx → α) (idx : IVec si w) (upd : u.Idx → α) :
    Host.scatter d f x idx upd = (List.finRange u.numel).foldl (step d f idx upd) x := rfl

/-- One additive step read at `i`: the old value, plus the update when it lands on `i`. -/
theorem step_add_apply {α : Type} [AddCommMonoid α] {s si u : Shape} {w : Nat} (d : ScatterDims s si u)
    (idx : IVec si w) (upd : u.Idx → α) (r : s.Idx → α) (n : Fin u.numel) (i : s.Idx) :
    step d (fun a b => a + b) idx upd r n i
      = r i + if d.resultIdx? (u.rowMajor.symm n) idx = some i then upd (u.rowMajor.symm n) else 0 := by
  unfold step
  cases h : d.resultIdx? (u.rowMajor.symm n) idx with
  | none => simp
  | some k =>
    by_cases hik : i = k
    · subst hik; simp
    · have : ¬ k = i := fun e => hik e.symm
      simp [hik, this]

/-- The additive fold over a duplicate-free list of update numbers, read at `i`: the start value plus
    the sum of the listed updates that land on `i`. -/
theorem foldl_step_add {α : Type} [AddCommMonoid α] {s si u : Shape} {w : Nat} (d : ScatterDims s si u)
    (idx : IVec si w) (upd : u.Idx → α) (L : List (Fin u.numel)) (hL : L.Nodup) (x : s.Idx → α) (i : s.Idx) :
    L.foldl (step d (fun a b => a + b) idx upd) x i
      = x i + ∑ n ∈ L.toFinset.filter (fun n => d.resultIdx? (u.rowMajor.symm n) idx = some i),
          upd (u.rowMajor.symm n) := by
  induction L generalizing x with
  | nil => simp
  | cons n L ih =>
    rw [List.foldl_cons, ih (List.nodup_cons.1 hL).2, step_add_apply, List.toFinset_cons, Finset.filter_insert]
    have hn : n ∉ L.toFinset := by simpa using (List.nodup_cons.1 hL).1
    by_cases h : d.resultIdx? (u.rowMajor.symm n) idx = some i
    · rw [if_pos h, if_pos h, Finset.sum_insert (fun hm => hn (Finset.mem_filter.1 hm).1), add_assoc]
    · rw [if_neg h, if_neg h, add_zero]

/-- An additive scatter read at `i` is the operand there plus the sum of the updates that land on `i`. -/
theorem scatter_add_apply {α : Type} [AddCommMonoid α] {s si u : Shape} {w : Nat} (d : ScatterDims s si u)
    (x : s.Idx → α) (idx : IVec si w) (upd : u.Idx → α) (i : s.Idx) :
    Host.scatter d (fun a b => a + b) x idx upd i
      = x i + ∑ j ∈ Finset.univ.filter (fun j => d.resultIdx? j idx = some i), upd j := by
  rw [scatter_eq_foldl, foldl_step_add d idx upd _ (List.nodup_finRange _)]
  congr 1
  refine Finset.sum_equiv u.rowMajor.symm ?_ ?_
  · intro n; simp
  · intro n _; rfl

/-- The integer scatter-add read at `i`: the operand there plus the (wrapping) sum of the updates that land on `i`. -/
theorem scatter_addi_apply {v : Nat} {s si u : Shape} {w : Nat} (d : ScatterDims s si u)
    (x : IVec s v) (idx : IVec si w) (upd : IVec u v) (i : s.Idx) :
    Host.scatter d IntOp.addi x idx upd i
      = x i + ∑ j ∈ Finset.univ.filter (fun j => d.resultIdx? j idx = some i), upd j :=
  scatter_add_apply d x idx upd i

/-- A sum of `S.card` copies of the 32-bit word `1` is the word of `S.card`. -/
theorem sum_one_bitvec {ι : Type} (S : Finset ι) :
    (∑ _j ∈ S, (1#32 : BitVec 32)) = BitVec.ofNat 32 S.card := by
  rw [Finset.sum_const, nsmul_eq_mul, BitVec.natCast_eq_ofNat]
  exact mul_one _

/-- A natural number below `2^31`, as a 32-bit word read signed, is itself. -/
theorem toInt_ofNat_of_lt {n : Nat} (h : n < 2 ^ 31) : (BitVec.ofNat 32 n).toInt = (n : ℤ) := by
  rw [BitVec.toInt_eq_toNat_cond, BitVec.toNat_ofNat]
  have : n % 2 ^ 32 = n := Nat.mod_eq_of_lt (by omega)
  rw [this, if_pos (by omega)]

/-- In the extended reals a sum of `S.card` ones is the real number `S.card`. -/
theorem sum_one_ereal {ι : Type} (S : Finset ι) :
    (∑ _j ∈ S, (((1 : ℝ)) : EReal)) = (((S.card : ℕ) : ℝ) : EReal) := by
  classical
  induction S using Finset.induction_on with
  | empty => simp
  | insert a S ha ih =>
    rw [Finset.sum_insert ha, ih, Finset.card_insert_of_notMem ha, ← EReal.coe_add]
    push_cast
    rw [add_comm]

/-- Multiplying a finite sum of extended reals by a nonnegative real distributes over the sum. -/
theorem sum_mul_coe_of_nonneg {ι : Type} (S : Finset ι) (f : ι → EReal) {r : ℝ} (hr : 0 ≤ r) :
    (∑ j ∈ S, f j) * (r : EReal) = ∑ j ∈ S, f j * (r : EReal) := by
  classical
  induction S using Finset.induction_on with
  | empty => simp
  | insert a S ha ih =>
    rw [Finset.sum_insert ha, Finset.sum_insert ha,
      EReal.right_distrib_of_nonneg_of_ne_top (EReal.coe_nonneg.2 hr) (EReal.coe_ne_top r), ih]

/-- The f32 word `0x3F800000` denotes the real number `1`. -/
theorem ofBits_one_f32 : Ideal.ofBits .f32 0x3F800000#32 = (((1 : ℝ)) : EReal) := by
  simp [Ideal.ofBits, Ideal.ieee, -EReal.coe_mul]; norm_num

/-- The f32 word `0x00000000` denotes the real number `0`. -/
theorem ofBits_zero_f32' : Ideal.ofBits .f32 0x00000000#32 = (((0 : ℝ)) : EReal) := by
  rw [Ideal.ofBits_zero_f32]; rfl

/-- The number of updates landing on one operand index is at most the number of updates. -/
theorem card_landing_le {s si u : Shape} {w : Nat} (d : ScatterDims s si u) (idx : IVec si w) (i : s.Idx) :
    (Finset.univ.filter (fun j : u.Idx => d.resultIdx? j idx = some i)).card ≤ u.numel :=
  (Finset.card_le_univ _).trans_eq u.card_idx

/-- Integer side, any shapes. With fewer than `2^31` updates, the integer scatter-add of ones into zeros,
    converted to float, is at each index the number of updates landing there, as a real number. -/
theorem sitofp_scatter_ones_apply {s si u : Shape} {w : Nat} (d : ScatterDims s si u) (idx : IVec si w)
    (hu : u.numel < 2 ^ 31)
    (hN : (⟨0, ![]⟩ : Shape).BroadcastsInDim s (![] : Fin 0 → Fin s.rank))
    (hE : (⟨0, ![]⟩ : Shape).BroadcastsInDim u (![] : Fin 0 → Fin u.rank)) (i : s.Idx) :
    (sitofp .f32 (Host.scatter d IntOp.addi (broadcastInDim s ![] hN (constantI ⟨0, ![]⟩ 32 0#32)) idx
        (broadcastInDim u ![] hE (constantI ⟨0, ![]⟩ 32 1#32))) : FVec Ideal s .f32) i
      = ((((Finset.univ.filter (fun j : u.Idx => d.resultIdx? j idx = some i)).card : ℕ) : ℝ) : EReal) := by
  show ((((Host.scatter d IntOp.addi (broadcastInDim s ![] hN (constantI ⟨0, ![]⟩ 32 0#32)) idx
        (broadcastInDim u ![] hE (constantI ⟨0, ![]⟩ 32 1#32)) i).toInt : ℤ) : ℝ) : EReal) = _
  rw [scatter_addi_apply]
  show ((((0#32 + ∑ _j ∈ Finset.univ.filter (fun j : u.Idx => d.resultIdx? j idx = some i), (1#32 : BitVec 32)).toInt
        : ℤ) : ℝ) : EReal) = _
  rw [BitVec.zero_add, sum_one_bitvec, toInt_ofNat_of_lt (lt_of_le_of_lt (card_landing_le d idx i) hu)]
  norm_cast

/-- Float side, any shapes. At the ideal values the float scatter-add of ones (the word `0x3F800000`) into zeros
    is at each index the number of updates landing there, as a real number. -/
theorem scatterAdd_ones_apply {s si u : Shape} {w : Nat} (d : ScatterDims s si u) (idx : IVec si w)
    (hN : (⟨0, ![]⟩ : Shape).BroadcastsInDim s (![] : Fin 0 → Fin s.rank))
    (hE : (⟨0, ![]⟩ : Shape).BroadcastsInDim u (![] : Fin 0 → Fin u.rank)) (i : s.Idx) :
    (Host.scatterAdd (F := Ideal) d (broadcastInDim s ![] hN (constant (F := Ideal) ⟨0, ![]⟩ .f32 0x00000000#32)) idx
        (broadcastInDim u ![] hE (constant (F := Ideal) ⟨0, ![]⟩ .f32 0x3F800000#32))) i
      = ((((Finset.univ.filter (fun j : u.Idx => d.resultIdx? j idx = some i)).card : ℕ) : ℝ) : EReal) := by
  show Ideal.ofBits .f32 0x00000000#32
      + ∑ _j ∈ Finset.univ.filter (fun j : u.Idx => d.resultIdx? j idx = some i), Ideal.ofBits .f32 0x3F800000#32 = _
  rw [Ideal.ofBits_zero_f32, zero_add, ofBits_one_f32, sum_one_ereal]

/-- A one-axis shape has as many elements as its axis is long. -/
theorem numel_rank1 (n : Nat) : (⟨1, ![n]⟩ : Shape).numel = n := by simp [Shape.numel]

/-- Integer side at literal shapes: `100000` nodes, `3300000` updates. -/
theorem degree_sitofp_scatter
    (d : ScatterDims ⟨1, ![100000]⟩ ⟨2, ![3300000, 1]⟩ ⟨1, ![3300000]⟩) (idx : IVec ⟨2, ![3300000, 1]⟩ 32)
    (hN : (⟨0, ![]⟩ : Shape).BroadcastsInDim ⟨1, ![100000]⟩ (![] : Fin 0 → Fin (⟨1, ![100000]⟩ : Shape).rank))
    (hE : (⟨0, ![]⟩ : Shape).BroadcastsInDim ⟨1, ![3300000]⟩ (![] : Fin 0 → Fin (⟨1, ![3300000]⟩ : Shape).rank))
    (i : (⟨1, ![100000]⟩ : Shape).Idx) :
    (sitofp .f32 (Host.scatter d IntOp.addi (broadcastInDim ⟨1, ![100000]⟩ ![] hN (constantI ⟨0, ![]⟩ 32 0#32)) idx
        (broadcastInDim ⟨1, ![3300000]⟩ ![] hE (constantI ⟨0, ![]⟩ 32 1#32))) : FVec Ideal ⟨1, ![100000]⟩ .f32) i
      = ((((Finset.univ.filter (fun j : (⟨1, ![3300000]⟩ : Shape).Idx => d.resultIdx? j idx = some i)).card : ℕ) : ℝ)
          : EReal) :=
  sitofp_scatter_ones_apply d idx (by rw [numel_rank1]; norm_num) hN hE i

/-- Float side at literal shapes: `100000` nodes, `3300000` updates. -/
theorem degree_scatterAdd
    (d : ScatterDims ⟨1, ![100000]⟩ ⟨2, ![3300000, 1]⟩ ⟨1, ![3300000]⟩) (idx : IVec ⟨2, ![3300000, 1]⟩ 32)
    (hN : (⟨0, ![]⟩ : Shape).BroadcastsInDim ⟨1, ![100000]⟩ (![] : Fin 0 → Fin (⟨1, ![100000]⟩ : Shape).rank))
    (hE : (⟨0, ![]⟩ : Shape).BroadcastsInDim ⟨1, ![3300000]⟩ (![] : Fin 0 → Fin (⟨1, ![3300000]⟩ : Shape).rank))
    (i : (⟨1, ![100000]⟩ : Shape).Idx) :
    (Host.scatterAdd (F := Ideal) d
        (broadcastInDim ⟨1, ![100000]⟩ ![] hN (constant (F := Ideal) ⟨0, ![]⟩ .f32 0x00000000#32)) idx
        (broadcastInDim ⟨1, ![3300000]⟩ ![] hE (constant (F := Ideal) ⟨0, ![]⟩ .f32 0x3F800000#32))) i
      = ((((Finset.univ.filter (fun j : (⟨1, ![3300000]⟩ : Shape).Idx => d.resultIdx? j idx = some i)).card : ℕ) : ℝ)
          : EReal) :=
  scatterAdd_ones_apply d idx hN hE i

/-- Where the degree is the natural number `n`, "reciprocal square root where positive, else zero" is
    `0` for `n = 0` and `1 / √n` for `n > 0`. -/
theorem dinv_apply {s : Shape}
    (hN : (⟨0, ![]⟩ : Shape).BroadcastsInDim s (![] : Fin 0 → Fin s.rank))
    (deg : FVec Ideal s .f32) (i : s.Idx) (n : ℕ) (hdeg : deg i = (((n : ℕ) : ℝ) : EReal)) :
    (select (cmpf .ogt deg (broadcastInDim s ![] hN (constant (F := Ideal) ⟨0, ![]⟩ .f32 0x00000000#32)))
        (Host.rsqrt (F := Ideal) deg)
        (broadcastInDim s ![] hN (id (constant (F := Ideal) ⟨0, ![]⟩ .f32 0x00000000#32)))) i
      = (((if n = 0 then 0 else (Real.sqrt n)⁻¹ : ℝ)) : EReal) := by
  show Scalar.select (Ideal.cmp .ogt (deg i) (Ideal.ofBits .f32 0x00000000#32)) (Ideal.rsqrt (deg i))
      (Ideal.ofBits .f32 0x00000000#32) = _
  rw [hdeg, Ideal.ofBits_zero_f32]
  rcases Nat.eq_zero_or_pos n with rfl | hn
  · have h0 : Ideal.cmp .ogt ((((0 : ℕ) : ℝ)) : EReal) 0 = 0#1 := by simp [Ideal.cmp]
    rw [h0, ValueIdx.select_zero, if_pos rfl]; rfl
  · have hpos : (0 : ℝ) < (n : ℝ) := by exact_mod_cast hn
    have h1 : Ideal.cmp .ogt ((((n : ℕ) : ℝ)) : EReal) 0 = 1#1 := by
      have h' : (0 : EReal) < (((n : ℕ) : ℝ) : EReal) := by exact_mod_cast hpos
      show BitVec.ofBool (decide ((0 : EReal) < (((n : ℕ) : ℝ) : EReal))) = 1#1
      rw [decide_eq_true h']; rfl
    rw [h1, ValueIdx.select_one, Ideal.rsqrt_coe, if_neg (not_lt.2 hpos.le), if_neg hpos.ne', if_neg (by omega)]

/-- Where the degree is a natural number, "reciprocal square root where positive, else zero" is a nonnegative
    real number. -/
theorem dinv_nonneg {s : Shape}
    (hN : (⟨0, ![]⟩ : Shape).BroadcastsInDim s (![] : Fin 0 → Fin s.rank))
    (deg : FVec Ideal s .f32) (i : s.Idx) (n : ℕ) (hdeg : deg i = (((n : ℕ) : ℝ) : EReal)) :
    ∃ r : ℝ, 0 ≤ r ∧
      (select (cmpf .ogt deg (broadcastInDim s ![] hN (constant (F := Ideal) ⟨0, ![]⟩ .f32 0x00000000#32)))
        (Host.rsqrt (F := Ideal) deg)
        (broadcastInDim s ![] hN (id (constant (F := Ideal) ⟨0, ![]⟩ .f32 0x00000000#32)))) i = (r : EReal) := by
  refine ⟨if n = 0 then 0 else (Real.sqrt n)⁻¹, ?_, dinv_apply hN deg i n hdeg⟩
  split_ifs
  · exact le_rfl
  · positivity

end

end Idealize.ShloMosaic.ScatterSum
-- ==== Proof.BridgeDegree.lean ====
/-
  The two programs' degree factors are one array. The kernel counts the edges landing on a node in integers and
  converts the count to a float; the reference adds a float one per such edge. On extended reals both are the
  number of those edges, so the degrees agree, and so do `dinv = degree > 0 ? degree^(-1/2) : 0`, which is a
  nonnegative real at every node.
-/
import proofs.«162518_j25056839205779_2_alg».proof.Proof.KernelHost
import proofs.«162518_j25056839205779_2_alg».proof.Proof.RefValue
import proofs.«162518_j25056839205779_2_alg».proof.Proof.LibScatterSum

set_option maxRecDepth 16384

noncomputable section

namespace Cert.Bridge

open Idealize.ShloMosaic Idealize.ShloMosaic.ValueIdx

/-- How many edges land on node `n`. -/
def landing (adj : Cert.KernelIdeal.S2x3200000.Idx → BitVec 32) (n : Cert.KernelIdeal.S100000.Idx) : ℕ :=
  (Finset.univ.filter (fun j : Cert.KernelIdeal.S3300000.Idx =>
    Cert.KernelIdeal.scatter_S100000_S3300000x1_S3300000_n_0_0_1.resultIdx? j
      (Cert.KernelIdeal.HostVal.colIdx (Cert.KernelIdeal.HostVal.dstOf adj)) = some n)).card

/-- The kernel's degree at a node is the number of edges landing on it. -/
theorem degK_apply (adj : Cert.KernelIdeal.S2x3200000.Idx → BitVec 32) (n : Cert.KernelIdeal.S100000.Idx) :
    Cert.KernelIdeal.HostVal.degK adj n = (((landing adj n : ℕ) : ℝ) : EReal) :=
  ScatterSum.degree_sitofp_scatter Cert.KernelIdeal.scatter_S100000_S3300000x1_S3300000_n_0_0_1
    (Cert.KernelIdeal.HostVal.colIdx (Cert.KernelIdeal.HostVal.dstOf adj))
    Cert.KernelIdeal.Facts₀.bcast_S_S100000 Cert.KernelIdeal.Facts₀.bcast_S_S3300000 n

/-- The reference's degree at a node is the same number. -/
theorem degR_apply (adj : Cert.KernelIdeal.S2x3200000.Idx → BitVec 32) (n : Cert.KernelIdeal.S100000.Idx) :
    Cert.ReferenceIdeal.RefVal.degR adj n = (((landing adj n : ℕ) : ℝ) : EReal) :=
  ScatterSum.degree_scatterAdd Cert.ReferenceIdeal.scatter_S100000_S3300000x1_S3300000_n_0_0_1
    (Cert.ReferenceIdeal.RefVal.colIdx (Cert.ReferenceIdeal.RefVal.dstOf adj))
    Cert.ReferenceIdeal.Facts₀.bcast_S_S100000 Cert.ReferenceIdeal.Facts₀.bcast_S_S3300000 n

/-- The two degrees are one array. -/
theorem deg_eq (adj : Cert.KernelIdeal.S2x3200000.Idx → BitVec 32) :
    Cert.KernelIdeal.HostVal.degK adj = Cert.ReferenceIdeal.RefVal.degR adj :=
  funext fun n => (degK_apply adj n).trans (degR_apply adj n).symm

/-- The two degree factors are one array. -/
theorem dinv_eq (adj : Cert.KernelIdeal.S2x3200000.Idx → BitVec 32) :
    Cert.KernelIdeal.HostVal.dinvOf (Cert.KernelIdeal.HostVal.degK adj)
      = Cert.ReferenceIdeal.RefVal.dinvOf (Cert.ReferenceIdeal.RefVal.degR adj) := by
  rw [deg_eq adj]
  rfl

/-- The degree factor is a nonnegative real at every node. -/
theorem dinv_real (adj : Cert.KernelIdeal.S2x3200000.Idx → BitVec 32) (n : Cert.KernelIdeal.S100000.Idx) :
    ∃ r : ℝ, 0 ≤ r ∧ Cert.KernelIdeal.HostVal.dinvOf (Cert.KernelIdeal.HostVal.degK adj) n = (r : EReal) :=
  ScatterSum.dinv_nonneg Cert.KernelIdeal.Facts₀.bcast_S_S100000 (Cert.KernelIdeal.HostVal.degK adj) n (landing adj n)
    (degK_apply adj n)

end Cert.Bridge

end
-- ==== Proof.LibGatherScatterDims.lean ====
import Idealize.ShloMosaic.PureOps.Ideal
import Idealize.ShloMosaic.Lib.ValueIdx

noncomputable section

namespace Idealize.ShloMosaic.TakeDims

open Idealize.ShloMosaic Idealize.ShloMosaic.ValueIdx

/-- The node array's shape: 100000 nodes. -/
abbrev SN : Shape := ⟨1, ![100000]⟩
/-- The node feature array's shape: 100000 nodes by 64 features. -/
abbrev SNF : Shape := ⟨2, ![100000, 64]⟩
/-- The start indices' shape: one index per edge, 3300000 edges. -/
abbrev SE1 : Shape := ⟨2, ![3300000, 1]⟩
/-- The edge array's shape: 3300000 edges. -/
abbrev SE : Shape := ⟨1, ![3300000]⟩
/-- The edge feature array's shape: 3300000 edges by 64 features. -/
abbrev SEF : Shape := ⟨2, ![3300000, 64]⟩

/-- Scatter of edge scalars into node scalars along axis 0. -/
def sd1 : ScatterDims SN SE1 SE :=
  { updateWindowDims := [], insertedWindowDims := [0], scatterDimsToOperandDims := [0], indexVectorDim := 1 }
/-- Scatter of edge rows into node rows along axis 0. -/
def sd64 : ScatterDims SNF SE1 SEF :=
  { updateWindowDims := [1], insertedWindowDims := [0], scatterDimsToOperandDims := [0], indexVectorDim := 1 }
/-- Gather of node scalars at edge endpoints along axis 0. -/
def gd1 : GatherDims SN SE1 SE :=
  { offsetDims := [], collapsedSliceDims := [0], operandBatchingDims := [], startIndicesBatchingDims := [],
    startIndexMap := [0], indexVectorDim := 1, sliceSizes := ![1] }
/-- Gather of node rows at edge endpoints along axis 0. -/
def gd64 : GatherDims SNF SE1 SEF :=
  { offsetDims := [1], collapsedSliceDims := [0], operandBatchingDims := [], startIndicesBatchingDims := [],
    startIndexMap := [0], indexVectorDim := 1, sliceSizes := ![1, 64] }

/-- The position [e, 0] of edge e's start index. -/
abbrev rowAt (e : Fin 3300000) : SE1.Idx := ix2 e (0 : Fin 1)

/-! ## The start-index position each operation reads -/

/-- The scalar gather reads edge e's start index at [e, 0]. -/
theorem gd1_siIdx (e : SE.Idx) (c : Fin gd1.startIndexMap.length) :
    gd1.siIdx e c = rowAt ⟨(e 0).val, (e 0).isLt⟩ := by
  funext b; refine Fin.ext ?_
  match b with
  | ⟨0, _⟩ => rfl
  | ⟨1, _⟩ => have h : c.val < 1 := c.isLt; show c.val = 0; omega

/-- The row gather reads edge u0's start index at [u0, 0]. -/
theorem gd64_siIdx (u : SEF.Idx) (c : Fin gd64.startIndexMap.length) :
    gd64.siIdx u c = rowAt ⟨(u 0).val, (u 0).isLt⟩ := by
  funext b; refine Fin.ext ?_
  match b with
  | ⟨0, _⟩ => rfl
  | ⟨1, _⟩ => have h : c.val < 1 := c.isLt; show c.val = 0; omega

/-- The scalar scatter reads edge e's start index at [e, 0]. -/
theorem sd1_siIdx (e : SE.Idx) (c : Fin sd1.scatterDimsToOperandDims.length) :
    sd1.siIdx e c = rowAt ⟨(e 0).val, (e 0).isLt⟩ := by
  funext b; refine Fin.ext ?_
  match b with
  | ⟨0, _⟩ => rfl
  | ⟨1, _⟩ => have h : c.val < 1 := c.isLt; show c.val = 0; omega

/-- The row scatter reads edge u0's start index at [u0, 0]. -/
theorem sd64_siIdx (u : SEF.Idx) (c : Fin sd64.scatterDimsToOperandDims.length) :
    sd64.siIdx u c = rowAt ⟨(u 0).val, (u 0).isLt⟩ := by
  funext b; refine Fin.ext ?_
  match b with
  | ⟨0, _⟩ => rfl
  | ⟨1, _⟩ => have h : c.val < 1 := c.isLt; show c.val = 0; omega

/-! ## The gathers' operand index -/

/-- The scalar gather reads node min (toNat (toInt I[e,0])) 99999: the start index read signed and clamped to [0, 99999]. -/
theorem gd1_operandIdx_0 (e : SE.Idx) (I : IVec SE1 32) :
    (gd1.operandIdx e I 0).val = min (I (rowAt ⟨(e 0).val, (e 0).isLt⟩)).toInt.toNat 99999 := by
  show gd1.start e I 0 + gd1.batchCoord e 0 + gd1.offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gd1.startIndexMap from List.mem_singleton.mpr rfl), gd1_siIdx]
  rfl

/-- The row gather reads node row min (toNat (toInt I[u0,0])) 99999: the start index read signed and clamped to [0, 99999]. -/
theorem gd64_operandIdx_0 (u : SEF.Idx) (I : IVec SE1 32) :
    (gd64.operandIdx u I 0).val = min (I (rowAt ⟨(u 0).val, (u 0).isLt⟩)).toInt.toNat 99999 := by
  show gd64.start u I 0 + gd64.batchCoord u 0 + gd64.offCoord u 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gd64.startIndexMap from List.mem_singleton.mpr rfl), gd64_siIdx]
  rfl

/-- The row gather keeps the feature column: it reads column u1. -/
theorem gd64_operandIdx_1 (u : SEF.Idx) (I : IVec SE1 32) :
    (gd64.operandIdx u I 1).val = (u 1).val := by
  show gd64.start u I 1 + gd64.batchCoord u 1 + gd64.offCoord u 1 = _
  rw [GatherDims.batchCoord_eq_zero _ _ _ List.not_mem_nil]
  unfold GatherDims.start GatherDims.offCoord
  rw [dif_neg (show ¬ (1 : Fin 2) ∈ gd64.startIndexMap by decide),
    dif_pos (show (1 : Fin 2) ∈ gd64.sKept by decide)]
  simp only [Nat.add_zero, Nat.zero_add]
  rfl

/-! ## The scatters' result index -/

/-- The row scatter's window starts at the start index read signed, on the node axis. -/
theorem sd64_start_0 (u : SEF.Idx) (I : IVec SE1 32) :
    sd64.start u I 0 = (I (rowAt ⟨(u 0).val, (u 0).isLt⟩)).toInt := by
  unfold ScatterDims.start
  rw [dif_pos (show (0 : Fin 2) ∈ sd64.scatterDimsToOperandDims from List.mem_singleton.mpr rfl), sd64_siIdx]

/-- The row scatter's window has no extent on the node axis. -/
theorem sd64_window_0 (u : SEF.Idx) : sd64.window u 0 = 0 := by
  unfold ScatterDims.window
  rw [dif_neg (show ¬ (0 : Fin 2) ∈ sd64.sKept by decide)]

/-- The row scatter's window starts at 0 on the feature axis. -/
theorem sd64_start_1 (u : SEF.Idx) (I : IVec SE1 32) : sd64.start u I 1 = 0 := by
  unfold ScatterDims.start
  rw [dif_neg (show ¬ (1 : Fin 2) ∈ sd64.scatterDimsToOperandDims by decide)]

/-- The row scatter's window coordinate on the feature axis is the update's column. -/
theorem sd64_window_1 (u : SEF.Idx) : sd64.window u 1 = (u 1).val := by
  unfold ScatterDims.window
  rw [dif_pos (show (1 : Fin 2) ∈ sd64.sKept by decide)]
  rfl

/-- An edge row that lands on node row i0 has start index i0 (read signed), and keeps its column. -/
theorem sd64_resultIdx_some (u : SEF.Idx) (I : IVec SE1 32) (i : SNF.Idx) (h : sd64.resultIdx? u I = some i) :
    (I (rowAt ⟨(u 0).val, (u 0).isLt⟩)).toInt = ((i 0).val : ℤ) ∧ (u 1).val = (i 1).val := by
  unfold ScatterDims.resultIdx? at h
  split at h
  · rename_i hr
    have hi := Option.some.inj h
    subst hi
    have h0 := (hr 0).1
    have h1 := (hr 1).1
    rw [sd64_start_0, sd64_window_0] at h0
    rw [sd64_start_1, sd64_window_1] at h1
    refine ⟨?_, ?_⟩
    · show _ = (((sd64.start u I 0 + sd64.window u 0).toNat : ℕ) : ℤ)
      rw [sd64_start_0, sd64_window_0]
      omega
    · show _ = (sd64.start u I 1 + sd64.window u 1).toNat
      rw [sd64_start_1, sd64_window_1]
      omega
  · exact absurd h (by simp)

/-- The scalar scatter's window starts at the start index read signed. -/
theorem sd1_start_0 (e : SE.Idx) (I : IVec SE1 32) :
    sd1.start e I 0 = (I (rowAt ⟨(e 0).val, (e 0).isLt⟩)).toInt := by
  unfold ScatterDims.start
  rw [dif_pos (show (0 : Fin 1) ∈ sd1.scatterDimsToOperandDims from List.mem_singleton.mpr rfl), sd1_siIdx]

/-- The scalar scatter's window has no extent. -/
theorem sd1_window_0 (e : SE.Idx) : sd1.window e 0 = 0 := by
  unfold ScatterDims.window
  rw [dif_neg (show ¬ (0 : Fin 1) ∈ sd1.sKept by decide)]

/-- An edge scalar that lands on node n0 has start index n0 (read signed). -/
theorem sd1_resultIdx_some (e : SE.Idx) (I : IVec SE1 32) (n : SN.Idx) (h : sd1.resultIdx? e I = some n) :
    (I (rowAt ⟨(e 0).val, (e 0).isLt⟩)).toInt = ((n 0).val : ℤ) := by
  unfold ScatterDims.resultIdx? at h
  split at h
  · rename_i hr
    have hi := Option.some.inj h
    subst hi
    have h0 := (hr 0).1
    rw [sd1_start_0, sd1_window_0] at h0
    show _ = (((sd1.start e I 0 + sd1.window e 0).toNat : ℕ) : ℤ)
    rw [sd1_start_0, sd1_window_0]
    omega
  · exact absurd h (by simp)

/-! ## The negative-index wrap, and the column broadcast -/

/-- A signed word that is not negative is not below zero, so the wrap "add 100000 when negative" leaves it alone. -/
theorem wrap_scalar (a : BitVec 32) (ha : 0 ≤ a.toInt) :
    Scalar.select (IntOp.cmpi .slt a 0#32) (IntOp.addi a 100000#32) a = a := by
  have hs : a.slt 0#32 = false := by
    simp only [BitVec.slt, BitVec.toInt_zero, decide_eq_false_iff_not, not_lt]
    exact ha
  show Scalar.select (BitVec.ofBool (a.slt 0#32)) (IntOp.addi a 100000#32) a = a
  rw [hs]
  exact select_zero _ _

/-- The vector wrap read at an edge whose index is not negative: the index itself. -/
theorem wrap_apply (h0 : (⟨0, ![]⟩ : Shape).BroadcastsInDim SE (![] : Fin 0 → Fin SE.rank))
    (v : SE.Idx → BitVec 32) (e : SE.Idx) (he : 0 ≤ (v e).toInt) :
    (select (cmpi .slt v (broadcastInDim SE ![] h0 (constantI ⟨0, ![]⟩ 32 0#32)))
      (addi v (broadcastInDim SE ![] h0 (constantI ⟨0, ![]⟩ 32 100000#32))) v) e = v e :=
  wrap_scalar (v e) he

/-- The column broadcast of an edge array, read at [e, 0], is the array at e. -/
theorem col_apply (h : SE.BroadcastsInDim SE1 (![0] : Fin 1 → Fin SE1.rank)) (v : SE.Idx → BitVec 32) (e : Fin 3300000) :
    broadcastInDim SE1 ![0] h v (rowAt e) = v (ix1 e) := by
  unfold broadcastInDim
  refine congrArg v (funext fun a => ?_)
  match a with
  | ⟨0, _⟩ => rfl

/-! ## An edge row that lands on node row r gathers node row r -/

/-- If the row scatter at destination indices dst sends update u to node row i0, then the scalar gather at any
    index array that agrees with dst wherever dst is not negative reads node i0 at edge u0:
    the destination index is exactly i0, which lies in [0, 99999], so neither the wrap nor the clamp moves it. -/
theorem gather_at_scatter_row_of_agree (h : SE.BroadcastsInDim SE1 (![0] : Fin 1 → Fin SE1.rank))
    (dst dst' : SE.Idx → BitVec 32) (hw : ∀ e : SE.Idx, 0 ≤ (dst e).toInt → dst' e = dst e)
    (u : SEF.Idx) (i : SNF.Idx)
    (hr : sd64.resultIdx? u (broadcastInDim SE1 ![0] h dst) = some i) :
    (gd1.operandIdx (ix1 ⟨(u 0).val, (u 0).isLt⟩) (broadcastInDim SE1 ![0] h dst') 0).val = (i 0).val := by
  have h3 := (sd64_resultIdx_some u _ i hr).1
  rw [col_apply] at h3
  have hi : (i 0).val < 100000 := (i 0).isLt
  rw [gd1_operandIdx_0]
  show min (broadcastInDim SE1 ![0] h dst' (rowAt ⟨(u 0).val, (u 0).isLt⟩)).toInt.toNat 99999 = _
  rw [col_apply, hw _ (by rw [h3]; exact Int.natCast_nonneg _), h3]
  omega

/-- THE COMPOSITE: if the row scatter at destination indices dst sends update u to node row i0, then the scalar gather
    at the wrapped destination indices reads node i0 at edge u0. -/
theorem gather_wrap_at_scatter_row (h : SE.BroadcastsInDim SE1 (![0] : Fin 1 → Fin SE1.rank))
    (h0 : (⟨0, ![]⟩ : Shape).BroadcastsInDim SE (![] : Fin 0 → Fin SE.rank))
    (dst : SE.Idx → BitVec 32) (u : SEF.Idx) (i : SNF.Idx)
    (hr : sd64.resultIdx? u (broadcastInDim SE1 ![0] h dst) = some i) :
    (gd1.operandIdx (ix1 ⟨(u 0).val, (u 0).isLt⟩)
      (broadcastInDim SE1 ![0] h
        (select (cmpi .slt dst (broadcastInDim SE ![] h0 (constantI ⟨0, ![]⟩ 32 0#32)))
          (addi dst (broadcastInDim SE ![] h0 (constantI ⟨0, ![]⟩ 32 100000#32))) dst)) 0).val = (i 0).val :=
  gather_at_scatter_row_of_agree h dst _ (fun e he => wrap_apply h0 dst e he) u i hr

end Idealize.ShloMosaic.TakeDims

end
-- ==== Proof.BridgeKernel.lean ====
/-
  The kernel's result at one index, in the form the comparison is made in: the sum over the edges landing on the
  index's row of `(row of x · column of W at the edge's source) · dinv[source]`, times `dinv[row]`, plus the bias.
-/
import proofs.«162518_j25056839205779_2_alg».proof.Proof.KernelHost
import proofs.«162518_j25056839205779_2_alg».proof.Proof.LibGatherScatterDims
import Idealize.ShloMosaic.Lib.Pipeline.Value

set_option maxRecDepth 16384

noncomputable section

namespace Cert.Bridge

open Idealize.ShloMosaic Idealize.ShloMosaic.ValueIdx
open Cert.KernelIdeal Cert.KernelIdeal.HostVal

/-- A length-`N` array viewed as a column, read at `(r, 0)`. -/
theorem col1_apply (d : FVec Ideal S100000 .f32) (r : Fin 100000) : col1 d (ix2 r (0 : Fin 1)) = d (ix1 r) := by
  unfold col1
  refine shapeCast_apply d _ (ix2 r (0 : Fin 1)) (ix1 r) ?_
  rw [Shape.rowMajor_val_one, Shape.rowMajor_val_two]
  show r.val = r.val * 1 + 0
  omega

/-- The bias viewed as a row, read at `(0, q)`. -/
theorem row1_apply (b : FVec Ideal S64 .f32) (q : Fin 64) : row1 b (ix2 (0 : Fin 1) q) = b (ix1 q) := by
  unfold row1
  refine shapeCast_apply b _ (ix2 (0 : Fin 1) q) (ix1 q) ?_
  rw [Shape.rowMajor_val_one, Shape.rowMajor_val_two]
  show q.val = 0 * 64 + q.val
  omega

theorem combine3 {a a' b b' c c' : EReal} (ha : a = a') (hb : b = b') (hc : c = c') : a * b + c = a' * b' + c' := by
  subst ha hb hc; rfl

/-- The first region's product at an entry: the row of `x` against the column of `w`, times the row's factor. -/
theorem product_apply (x : FVec Ideal S100000x256 .f32) (w : FVec Ideal S256x64 .f32) (dinv : FVec Ideal S100000 .f32)
    (k : S100000x64.Idx) :
    MatmulScale.matmulScale x w (col1 dinv) k = MatmulScale.dotAt x w k * dinv (ix1 ⟨(k 0).val, (k 0).isLt⟩) :=
  congrArg (MatmulScale.dotAt x w k * ·) (col1_apply dinv ⟨(k 0).val, (k 0).isLt⟩)

/-- The float scatter-add at an index: the base entry plus the sum of the updates landing on the index. -/
theorem scat_apply (z : FVec Ideal S100000x64 .f32) (I : S3300000x1.Idx → BitVec 32) (upd : FVec Ideal S3300000x64 .f32)
    (i : S100000x64.Idx) :
    Host.scatterAdd (F := Ideal) scatter_S100000x64_S3300000x1_S3300000x64_1_0_0_1 z I upd i
      = Ideal.hostScatterAdd scatter_S100000x64_S3300000x1_S3300000x64_1_0_0_1 z I upd i := by
  unfold Host.scatterAdd
  rw [Ideal.hostScatterAdd_def]

/-- A gathered row entry is the operand's entry at the clamped start row. -/
theorem gather_apply (hs : FVec Ideal S100000x64 .f32) (I : S3300000x1.Idx → BitVec 32) (u : S3300000x64.Idx) :
    Host.gather gather_S100000x64_S3300000x1_S3300000x64_1_0_n_n_0_1_164 hs I u
      = hs (gather_S100000x64_S3300000x1_S3300000x64_1_0_n_n_0_1_164.operandIdx u I) := rfl

/-- The gather / scatter-add between the regions at an index. -/
theorem agg_apply (hs : FVec Ideal S100000x64 .f32) (src dst : S3300000.Idx → BitVec 32) (i : S100000x64.Idx) :
    aggOf hs src dst i
      = Ideal.hostScatterAdd scatter_S100000x64_S3300000x1_S3300000x64_1_0_0_1
          (broadcastInDim S100000x64 ![] Facts₀.bcast_S_S100000x64 (constant (F := Ideal) S_ .f32 0x00000000#32))
          (colIdx dst)
          (Host.gather gather_S100000x64_S3300000x1_S3300000x64_1_0_n_n_0_1_164 hs (colIdx (wrapIdx src))) i := by
  unfold aggOf
  exact scat_apply _ _ _ i

/-- The kernel's result at an index: the scatter-add of the gathered rows of the first region's product, times the
    row's degree factor, plus the bias. -/
theorem kernel_form (x : FVec Ideal S100000x256 .f32) (adj : S2x3200000.Idx → BitVec 32) (w : FVec Ideal S256x64 .f32)
    (b : FVec Ideal S64 .f32) (i : S100000x64.Idx) :
    kernelVal x adj w b i
      = Ideal.hostScatterAdd scatter_S100000x64_S3300000x1_S3300000x64_1_0_0_1
          (broadcastInDim S100000x64 ![] Facts₀.bcast_S_S100000x64 (constant (F := Ideal) S_ .f32 0x00000000#32))
          (colIdx (dstOf adj))
          (Host.gather gather_S100000x64_S3300000x1_S3300000x64_1_0_n_n_0_1_164 (MatmulScale.matmulScale x w (col1 (dinvOf (degK adj)))) (colIdx (wrapIdx (srcOf adj)))) i
        * dinvOf (degK adj) (ix1 ⟨(i 0).val, (i 0).isLt⟩)
        + b (ix1 ⟨(i 1).val, (i 1).isLt⟩) :=
  combine3 (agg_apply _ _ _ i) (col1_apply (dinvOf (degK adj)) ⟨(i 0).val, (i 0).isLt⟩) (row1_apply b ⟨(i 1).val, (i 1).isLt⟩)

end Cert.Bridge

end
-- ==== Proof.BridgeRef.lean ====
/-
  The reference's result at one index, in the form the comparison is made in: the sum over the edges landing on the
  index's row of `(row of x · column of W at the edge's source) · (dinv[source] · dinv[destination])`, plus the bias.
-/
import proofs.«162518_j25056839205779_2_alg».proof.Proof.RefValue
import proofs.«162518_j25056839205779_2_alg».proof.Proof.LibDotSum
import proofs.«162518_j25056839205779_2_alg».proof.Proof.LibGatherScatterDims
import Idealize.ShloMosaic.Lib.Pipeline.Value

set_option maxRecDepth 16384

noncomputable section

namespace Cert.BridgeRef

open Idealize.ShloMosaic Idealize.ShloMosaic.ValueIdx
open Cert.ReferenceIdeal Cert.ReferenceIdeal.RefVal

/-! ### The whole product's operand indices -/

theorem lhs0 (j : S100000x64.Idx) (q : dot_S100000x256_S256x64_S100000x64_1_0_0_1_n_n.contr.Idx) :
    (dot_S100000x256_S256x64_S100000x64_1_0_0_1_n_n.lhsIdx j q 0).val = (j 0).val := by
  unfold DotDims.lhsIdx
  rw [dif_neg (show ¬(0 : Fin S100000x256.rank) ∈ dot_S100000x256_S256x64_S100000x64_1_0_0_1_n_n.lhsBatch by decide),
    dif_pos (show (0 : Fin S100000x256.rank) ∈ dot_S100000x256_S256x64_S100000x64_1_0_0_1_n_n.lhsNonContracting by decide)]
  rfl
theorem lhs1 (j : S100000x64.Idx) (q : dot_S100000x256_S256x64_S100000x64_1_0_0_1_n_n.contr.Idx) :
    (dot_S100000x256_S256x64_S100000x64_1_0_0_1_n_n.lhsIdx j q 1).val = (q ⟨0, by decide⟩).val :=
  dot_S100000x256_S256x64_S100000x64_1_0_0_1_n_n.lhsIdx_val_of_single rfl j q
theorem rhs0 (j : S100000x64.Idx) (q : dot_S100000x256_S256x64_S100000x64_1_0_0_1_n_n.contr.Idx) :
    (dot_S100000x256_S256x64_S100000x64_1_0_0_1_n_n.rhsIdx j q 0).val = (q ⟨0, by decide⟩).val :=
  dot_S100000x256_S256x64_S100000x64_1_0_0_1_n_n.rhsIdx_val_of_single rfl j q
theorem rhs1 (j : S100000x64.Idx) (q : dot_S100000x256_S256x64_S100000x64_1_0_0_1_n_n.contr.Idx) :
    (dot_S100000x256_S256x64_S100000x64_1_0_0_1_n_n.rhsIdx j q 1).val = (j 1).val := by
  unfold DotDims.rhsIdx
  rw [dif_neg (show ¬(1 : Fin S256x64.rank) ∈ dot_S100000x256_S256x64_S100000x64_1_0_0_1_n_n.rhsBatch by decide),
    dif_pos (show (1 : Fin S256x64.rank) ∈ dot_S100000x256_S256x64_S100000x64_1_0_0_1_n_n.rhsNonContracting by decide)]
  rfl

/-- The reference's matrix product at an entry: the row of `x` against the column of `w`. -/
theorem dot_apply (x : FVec Ideal S100000x256 .f32) (w : FVec Ideal S256x64 .f32) (k : S100000x64.Idx) :
    Host.dotGeneral dot_S100000x256_S256x64_S100000x64_1_0_0_1_n_n none x w k
      = ∑ q : Fin 256, x (ix2 (k 0) q) * w (ix2 q (k 1)) :=
  (Ideal.dotGeneral_apply dot_S100000x256_S256x64_S100000x64_1_0_0_1_n_n none .single x w k).trans
    (DotSum.sum_contr_eq dot_S100000x256_S256x64_S100000x64_1_0_0_1_n_n rfl rfl lhs0 lhs1 rhs0 rhs1 x w k)

/-- A per-edge array broadcast along the feature axis, read at `(e, q)`. -/
theorem edge_bcast_apply (nrm : FVec Ideal S3300000 .f32) (u : S3300000x64.Idx) :
    (broadcastInDim S3300000x64 ![0, 1] Facts₀.bcast_S3300000x1_S3300000x64_0_1
      (broadcastInDim S3300000x1 ![0] Facts₀.bcast_S3300000_S3300000x1_0 nrm)) u
      = nrm (ix1 ⟨(u 0).val, (u 0).isLt⟩) := by
  refine (broadcastInDim_apply _ _ _ u (ix2 ⟨(u 0).val, (u 0).isLt⟩ (0 : Fin 1)) (fun a => by
    match a with
    | ⟨0, _⟩ => rfl
    | ⟨1, _⟩ => rfl)).trans ?_
  exact broadcastInDim_apply _ _ nrm (ix2 ⟨(u 0).val, (u 0).isLt⟩ (0 : Fin 1)) (ix1 ⟨(u 0).val, (u 0).isLt⟩) (fun a => by
    match a with
    | ⟨0, _⟩ => rfl)

/-- The bias broadcast along the node axis, read at `(n, q)`. -/
theorem bias_bcast_apply (b : FVec Ideal S64 .f32) (i : S100000x64.Idx) :
    (broadcastInDim S100000x64 ![0, 1] Facts₀.bcast_S1x64_S100000x64_0_1
      (broadcastInDim S1x64 ![1] Facts₀.bcast_S64_S1x64_1 b)) i
      = b (ix1 ⟨(i 1).val, (i 1).isLt⟩) := by
  refine (broadcastInDim_apply _ _ _ i (ix2 (0 : Fin 1) ⟨(i 1).val, (i 1).isLt⟩) (fun a => by
    match a with
    | ⟨0, _⟩ => rfl
    | ⟨1, _⟩ => rfl)).trans ?_
  exact broadcastInDim_apply _ _ b (ix2 (0 : Fin 1) ⟨(i 1).val, (i 1).isLt⟩) (ix1 ⟨(i 1).val, (i 1).isLt⟩) (fun a => by
    match a with
    | ⟨0, _⟩ => rfl)

theorem combineMul {a a' b b' : EReal} (ha : a = a') (hb : b = b') : a * b = a' * b' := by subst ha hb; rfl
theorem combineAdd {a a' c c' : EReal} (ha : a = a') (hc : c = c') : a + c = a' + c' := by subst ha hc; rfl

/-- One message at `(e, q)`. -/
theorem msgs_apply (x : FVec Ideal S100000x256 .f32) (w : FVec Ideal S256x64 .f32) (dinv : FVec Ideal S100000 .f32)
    (src dst : S3300000.Idx → BitVec 32) (u : S3300000x64.Idx) :
    msgsOf (Host.dotGeneral dot_S100000x256_S256x64_S100000x64_1_0_0_1_n_n none x w) (normOf dinv src dst) src u
      = (∑ q : Fin 256, x (ix2 ((gather_S100000x64_S3300000x1_S3300000x64_1_0_n_n_0_1_164.operandIdx u (colIdx (wrapIdx src))) 0) q)
            * w (ix2 q ((gather_S100000x64_S3300000x1_S3300000x64_1_0_n_n_0_1_164.operandIdx u (colIdx (wrapIdx src))) 1)))
        * (dinv (gather_S100000_S3300000x1_S3300000_n_0_n_n_0_1_1.operandIdx (ix1 ⟨(u 0).val, (u 0).isLt⟩) (colIdx (wrapIdx src)))
            * dinv (gather_S100000_S3300000x1_S3300000_n_0_n_n_0_1_1.operandIdx (ix1 ⟨(u 0).val, (u 0).isLt⟩) (colIdx (wrapIdx dst)))) := by
  unfold msgsOf
  rw [mulf_apply]
  refine combineMul ?_ ?_
  · unfold Host.gather
    exact dot_apply x w (gather_S100000x64_S3300000x1_S3300000x64_1_0_n_n_0_1_164.operandIdx u (colIdx (wrapIdx src)))
  · refine (edge_bcast_apply (normOf dinv src dst) u).trans ?_
    unfold normOf Host.gather
    rw [mulf_apply]

/-- The float scatter-add at an index: the base entry plus the sum of the updates landing on the index. -/
theorem scat_apply (z : FVec Ideal S100000x64 .f32) (I : S3300000x1.Idx → BitVec 32) (upd : FVec Ideal S3300000x64 .f32)
    (i : S100000x64.Idx) :
    Host.scatterAdd (F := Ideal) scatter_S100000x64_S3300000x1_S3300000x64_1_0_0_1 z I upd i = Ideal.hostScatterAdd scatter_S100000x64_S3300000x1_S3300000x64_1_0_0_1 z I upd i := by
  unfold Host.scatterAdd
  rw [Ideal.hostScatterAdd_def]

/-- The reference's result at an index. -/
theorem ref_form (x : FVec Ideal S100000x256 .f32) (adj : S2x3200000.Idx → BitVec 32) (w : FVec Ideal S256x64 .f32)
    (b : FVec Ideal S64 .f32) (i : S100000x64.Idx) :
    refVal x adj w b i
      = Ideal.hostScatterAdd scatter_S100000x64_S3300000x1_S3300000x64_1_0_0_1
          (broadcastInDim S100000x64 ![] Facts₀.bcast_S_S100000x64 (constant (F := Ideal) S_ .f32 0x00000000#32))
          (colIdx (dstOf adj))
          (fun u => (∑ q : Fin 256, x (ix2 ((gather_S100000x64_S3300000x1_S3300000x64_1_0_n_n_0_1_164.operandIdx u (colIdx (wrapIdx (srcOf adj)))) 0) q)
                * w (ix2 q ((gather_S100000x64_S3300000x1_S3300000x64_1_0_n_n_0_1_164.operandIdx u (colIdx (wrapIdx (srcOf adj)))) 1)))
            * (dinvOf (degR adj) (gather_S100000_S3300000x1_S3300000_n_0_n_n_0_1_1.operandIdx (ix1 ⟨(u 0).val, (u 0).isLt⟩) (colIdx (wrapIdx (srcOf adj))))
                * dinvOf (degR adj) (gather_S100000_S3300000x1_S3300000_n_0_n_n_0_1_1.operandIdx (ix1 ⟨(u 0).val, (u 0).isLt⟩) (colIdx (wrapIdx (dstOf adj)))))) i
        + b (ix1 ⟨(i 1).val, (i 1).isLt⟩) := by
  unfold refVal
  rw [addf_apply]
  refine combineAdd ?_ (bias_bcast_apply b i)
  refine (scat_apply _ _ _ i).trans ?_
  exact congrArg (fun f => Ideal.hostScatterAdd scatter_S100000x64_S3300000x1_S3300000x64_1_0_0_1
      (broadcastInDim S100000x64 ![] Facts₀.bcast_S_S100000x64 (constant (F := Ideal) S_ .f32 0x00000000#32))
      (colIdx (dstOf adj)) f i)
    (funext fun u => msgs_apply x w (dinvOf (degR adj)) (srcOf adj) (dstOf adj) u)

end Cert.BridgeRef

end
-- ==== Proof.LibGcnCore.lean ====
import proofs.«162518_j25056839205779_2_alg».proof.Proof.LibGatherScatterDims

noncomputable section

open scoped BigOperators

namespace Idealize.ShloMosaic.GcnCore

open Idealize.ShloMosaic Idealize.ShloMosaic.ValueIdx Idealize.ShloMosaic.TakeDims

/-- A nonnegative real factor distributes over a finite sum of extended reals. -/
theorem sum_mul_real {ι : Type*} (S : Finset ι) (f : ι → EReal) {r : ℝ} (hr : 0 ≤ r) :
    (∑ j ∈ S, f j) * (r : EReal) = ∑ j ∈ S, f j * (r : EReal) := by
  classical
  induction S using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- The node that a position [n, f] of the node feature array lies on: n, as an index of the node array. -/
def rowNode (j : SNF.Idx) : SN.Idx := ix1 ⟨(j 0).val, (j 0).isLt⟩

/-- The node of [n, f] spelled out by its coordinate. -/
theorem rowNode_eq (j : SNF.Idx) : rowNode j = ix1 ⟨(j 0).val, (j 0).isLt⟩ := rfl

/-- The node of [n, f] has coordinate n. -/
theorem rowNode_val (j : SNF.Idx) : (rowNode j 0).val = (j 0).val := rfl

/-- The scalar gather and the row gather at the same start indices read the same node: both clamp edge u0's start
    index to [0, 99999]. -/
theorem gd1_eq_gd64_row (I : IVec SE1 32) (u : SEF.Idx) :
    gd1.operandIdx (ix1 ⟨(u 0).val, (u 0).isLt⟩) I = rowNode (gd64.operandIdx u I) := by
  funext a
  match a with
  | ⟨0, _⟩ => exact Fin.ext ((gd1_operandIdx_0 _ I).trans (gd64_operandIdx_0 u I).symm)

/-- If the row scatter at start indices Id sends update u to node row i0, then the scalar gather at any start indices
    Id' that agree with Id wherever Id is not negative reads node i0 at edge u0, as a whole index. -/
theorem gd1_at_scatter_row (Id Id' : IVec SE1 32)
    (hw : ∀ e : Fin 3300000, 0 ≤ (Id (rowAt e)).toInt → Id' (rowAt e) = Id (rowAt e))
    (u : SEF.Idx) (i : SNF.Idx) (hr : sd64.resultIdx? u Id = some i) :
    gd1.operandIdx (ix1 ⟨(u 0).val, (u 0).isLt⟩) Id' = rowNode i := by
  have h3 := (sd64_resultIdx_some u Id i hr).1
  have hi : (i 0).val < 100000 := (i 0).isLt
  funext a
  match a with
  | ⟨0, _⟩ =>
    refine Fin.ext ?_
    refine (gd1_operandIdx_0 _ Id').trans ?_
    show min (Id' (rowAt ⟨(u 0).val, (u 0).isLt⟩)).toInt.toNat 99999 = (i 0).val
    rw [hw _ (by rw [h3]; exact Int.natCast_nonneg _), h3]
    omega

/-- THE CORE, over arbitrary start indices. Let hs be the node rows h each scaled by its node's degree factor. Gathering
    rows of hs at the source indices, summing those that land on node row i0, then scaling by node i0's degree factor,
    equals summing the gathered rows of h each scaled by the product of its source and destination degree factors:
    an edge that lands on row i0 has destination i0, the degree factor is a nonnegative real so it distributes over
    the finite sum, and multiplication is associative. -/
theorem core_gen (Is Id Id' : IVec SE1 32)
    (hw : ∀ e : Fin 3300000, 0 ≤ (Id (rowAt e)).toInt → Id' (rowAt e) = Id (rowAt e))
    (h hs : SNF.Idx → EReal) (dinv : SN.Idx → EReal) (hd : ∀ n : SN.Idx, ∃ r : ℝ, 0 ≤ r ∧ dinv n = (r : EReal))
    (hhs : ∀ j : SNF.Idx, hs j = h j * dinv (rowNode j))
    (z bias : SNF.Idx → EReal) (hz : ∀ i, z i = 0) (i : SNF.Idx) :
    Ideal.hostScatterAdd sd64 z Id (fun u => hs (gd64.operandIdx u Is)) i * dinv (rowNode i) + bias i
    = Ideal.hostScatterAdd sd64 z Id
        (fun u => h (gd64.operandIdx u Is)
                  * (dinv (gd1.operandIdx (ix1 ⟨(u 0).val, (u 0).isLt⟩) Is)
                     * dinv (gd1.operandIdx (ix1 ⟨(u 0).val, (u 0).isLt⟩) Id'))) i
      + bias i := by
  obtain ⟨r, hr, hdr⟩ := hd (rowNode i)
  simp only [Ideal.hostScatterAdd]
  rw [hz i, zero_add, zero_add, hdr, sum_mul_real _ _ hr]
  refine congrArg (fun x => x + bias i) ?_
  refine Finset.sum_congr rfl (fun u hu => ?_)
  have hu' := (Finset.mem_filter.mp hu).2
  rw [hhs, gd1_eq_gd64_row, gd1_at_scatter_row Id Id' hw u i hu', hdr, mul_assoc]

/-- THE CORE, at column broadcasts of edge arrays: destination indices dst for the scatter, source indices nsrc for
    the gathers, and destination indices ndst (equal to dst wherever dst is not negative) for the gather of the
    destination's degree factor. -/
theorem core (h1 : SE.BroadcastsInDim SE1 (![0] : Fin 1 → Fin SE1.rank)) (dst nsrc ndst : SE.Idx → BitVec 32)
    (hw : ∀ e : SE.Idx, 0 ≤ (dst e).toInt → ndst e = dst e)
    (h hs : SNF.Idx → EReal) (dinv : SN.Idx → EReal) (hd : ∀ n : SN.Idx, ∃ r : ℝ, 0 ≤ r ∧ dinv n = (r : EReal))
    (hhs : ∀ j : SNF.Idx, hs j = h j * dinv (rowNode j))
    (z bias : SNF.Idx → EReal) (hz : ∀ i, z i = 0) (i : SNF.Idx) :
    Ideal.hostScatterAdd sd64 z (broadcastInDim SE1 ![0] h1 dst)
        (fun u => hs (gd64.operandIdx u (broadcastInDim SE1 ![0] h1 nsrc))) i
      * dinv (rowNode i) + bias i
    = Ideal.hostScatterAdd sd64 z (broadcastInDim SE1 ![0] h1 dst)
        (fun u => h (gd64.operandIdx u (broadcastInDim SE1 ![0] h1 nsrc))
                  * (dinv (gd1.operandIdx (ix1 ⟨(u 0).val, (u 0).isLt⟩) (broadcastInDim SE1 ![0] h1 nsrc))
                     * dinv (gd1.operandIdx (ix1 ⟨(u 0).val, (u 0).isLt⟩) (broadcastInDim SE1 ![0] h1 ndst)))) i
      + bias i := by
  refine core_gen _ _ _ (fun e he => ?_) h hs dinv hd hhs z bias hz i
  rw [col_apply] at he
  rw [col_apply, col_apply]
  exact hw _ he

end Idealize.ShloMosaic.GcnCore

end
-- ==== Proof.Bridge.lean ====
/-
  The kernel's result and the reference's are one function of the arguments. At a result index both are a sum over
  the edges landing on the index's row: the kernel's of `h[src] · dinv[src]`, the whole sum then multiplied by
  `dinv[row]`; the reference's of `h[src] · (dinv[src] · dinv[dst])`, where `dst` is the row itself. The factor
  `dinv[row]` is a nonnegative real, so it goes inside the sum.
-/
import proofs.«162518_j25056839205779_2_alg».proof.Proof.BridgeDegree
import proofs.«162518_j25056839205779_2_alg».proof.Proof.BridgeKernel
import proofs.«162518_j25056839205779_2_alg».proof.Proof.BridgeRef
import proofs.«162518_j25056839205779_2_alg».proof.Proof.LibGcnCore

set_option maxRecDepth 16384

noncomputable section

namespace Cert.Bridge

open Idealize.ShloMosaic Idealize.ShloMosaic.ValueIdx

/-! ### The two programs' dimension records and index arrays are the same -/

theorem scatterK_eq : Cert.KernelIdeal.scatter_S100000x64_S3300000x1_S3300000x64_1_0_0_1 = TakeDims.sd64 := rfl
theorem gatherK_eq : Cert.KernelIdeal.gather_S100000x64_S3300000x1_S3300000x64_1_0_n_n_0_1_164 = TakeDims.gd64 := rfl
theorem scatterR_eq : Cert.ReferenceIdeal.scatter_S100000x64_S3300000x1_S3300000x64_1_0_0_1 = TakeDims.sd64 := rfl
theorem gatherR_eq : Cert.ReferenceIdeal.gather_S100000x64_S3300000x1_S3300000x64_1_0_n_n_0_1_164 = TakeDims.gd64 := rfl
theorem gather1R_eq : Cert.ReferenceIdeal.gather_S100000_S3300000x1_S3300000_n_0_n_n_0_1_1 = TakeDims.gd1 := rfl

theorem dstIdx_eq (adj : Cert.KernelIdeal.S2x3200000.Idx → BitVec 32) :
    Cert.ReferenceIdeal.RefVal.colIdx (Cert.ReferenceIdeal.RefVal.dstOf adj)
      = Cert.KernelIdeal.HostVal.colIdx (Cert.KernelIdeal.HostVal.dstOf adj) := rfl
theorem srcWrapIdx_eq (adj : Cert.KernelIdeal.S2x3200000.Idx → BitVec 32) :
    Cert.ReferenceIdeal.RefVal.colIdx (Cert.ReferenceIdeal.RefVal.wrapIdx (Cert.ReferenceIdeal.RefVal.srcOf adj))
      = Cert.KernelIdeal.HostVal.colIdx (Cert.KernelIdeal.HostVal.wrapIdx (Cert.KernelIdeal.HostVal.srcOf adj)) := rfl
theorem dstWrapIdx_eq (adj : Cert.KernelIdeal.S2x3200000.Idx → BitVec 32) :
    Cert.ReferenceIdeal.RefVal.colIdx (Cert.ReferenceIdeal.RefVal.wrapIdx (Cert.ReferenceIdeal.RefVal.dstOf adj))
      = Cert.KernelIdeal.HostVal.colIdx (Cert.KernelIdeal.HostVal.wrapIdx (Cert.KernelIdeal.HostVal.dstOf adj)) := rfl

/-- The zero array both scatter-adds start from. -/
theorem zeros_apply (i : Cert.KernelIdeal.S100000x64.Idx) :
    (broadcastInDim Cert.KernelIdeal.S100000x64 ![] Cert.KernelIdeal.Facts₀.bcast_S_S100000x64
      (constant (F := Ideal) Cert.KernelIdeal.S_ .f32 0x00000000#32)) i = 0 :=
  Ideal.ofBits_zero_f32

/-- A wrapped destination index that is nonnegative is the index itself. -/
theorem wrap_dst (adj : Cert.KernelIdeal.S2x3200000.Idx → BitVec 32) (e : Cert.KernelIdeal.S3300000.Idx)
    (he : 0 ≤ (Cert.KernelIdeal.HostVal.dstOf adj e).toInt) :
    Cert.KernelIdeal.HostVal.wrapIdx (Cert.KernelIdeal.HostVal.dstOf adj) e = Cert.KernelIdeal.HostVal.dstOf adj e :=
  TakeDims.wrap_apply Cert.KernelIdeal.Facts₀.bcast_S_S3300000 (Cert.KernelIdeal.HostVal.dstOf adj) e he

/-- The kernel's result and the reference's are one function of the four arguments. -/
theorem value_eq (x : FVec Ideal Cert.KernelIdeal.S100000x256 .f32) (adj : Cert.KernelIdeal.S2x3200000.Idx → BitVec 32)
    (w : FVec Ideal Cert.KernelIdeal.S256x64 .f32) (b : FVec Ideal Cert.KernelIdeal.S64 .f32) :
    Cert.KernelIdeal.HostVal.kernelVal x adj w b = Cert.ReferenceIdeal.RefVal.refVal x adj w b := by
  funext i
  refine (kernel_form x adj w b i).trans ?_
  refine Eq.trans ?_ (Cert.BridgeRef.ref_form x adj w b i).symm
  rw [← dinv_eq adj, scatterR_eq, gatherR_eq, gather1R_eq, dstIdx_eq, srcWrapIdx_eq, dstWrapIdx_eq,
    show (Host.gather Cert.KernelIdeal.gather_S100000x64_S3300000x1_S3300000x64_1_0_n_n_0_1_164
        (Cert.KernelIdeal.MatmulScale.matmulScale x w (Cert.KernelIdeal.HostVal.col1
          (Cert.KernelIdeal.HostVal.dinvOf (Cert.KernelIdeal.HostVal.degK adj))))
        (Cert.KernelIdeal.HostVal.colIdx (Cert.KernelIdeal.HostVal.wrapIdx (Cert.KernelIdeal.HostVal.srcOf adj))))
      = (fun u => Cert.KernelIdeal.MatmulScale.matmulScale x w (Cert.KernelIdeal.HostVal.col1
          (Cert.KernelIdeal.HostVal.dinvOf (Cert.KernelIdeal.HostVal.degK adj)))
          (Cert.KernelIdeal.gather_S100000x64_S3300000x1_S3300000x64_1_0_n_n_0_1_164.operandIdx u
            (Cert.KernelIdeal.HostVal.colIdx (Cert.KernelIdeal.HostVal.wrapIdx (Cert.KernelIdeal.HostVal.srcOf adj)))))
      from funext (gather_apply _ _),
    scatterK_eq, gatherK_eq]
  unfold Cert.KernelIdeal.HostVal.colIdx
  exact GcnCore.core Cert.KernelIdeal.Facts₀.bcast_S3300000_S3300000x1_0
    (Cert.KernelIdeal.HostVal.dstOf adj)
    (Cert.KernelIdeal.HostVal.wrapIdx (Cert.KernelIdeal.HostVal.srcOf adj))
    (Cert.KernelIdeal.HostVal.wrapIdx (Cert.KernelIdeal.HostVal.dstOf adj))
    (wrap_dst adj)
    (fun k => ∑ q : Fin 256, x (ix2 (k 0) q) * w (ix2 q (k 1)))
    (Cert.KernelIdeal.MatmulScale.matmulScale x w (Cert.KernelIdeal.HostVal.col1
      (Cert.KernelIdeal.HostVal.dinvOf (Cert.KernelIdeal.HostVal.degK adj))))
    (Cert.KernelIdeal.HostVal.dinvOf (Cert.KernelIdeal.HostVal.degK adj))
    (dinv_real adj)
    (fun j => product_apply x w (Cert.KernelIdeal.HostVal.dinvOf (Cert.KernelIdeal.HostVal.degK adj)) j)
    _ (fun i => b (ix1 ⟨(i 1).val, (i 1).isLt⟩)) zeros_apply i

end Cert.Bridge

end
-- ==== Proof.lean ====
/-
  A graph-convolution layer: `out = D^(-1/2) (A + I) D^(-1/2) (x W) + b`, with `A + I` given as an edge list with
  self-loops and `D` the in-degrees. The reference scales every message `h[src]` by `dinv[src] · dinv[dst]` before
  adding it into row `dst`. The kernel scales the rows of `h = x W` by `dinv` once (inside its first pipelined
  region), adds the scaled rows into their destination rows, and scales each aggregated row by its own `dinv`
  (inside its second region): every message landing on row `n` has `dst = n`, `dinv[n]` is a nonnegative real,
  and a nonnegative real factor distributes over a finite sum of extended reals. The kernel's degree is an
  integer count converted to a float, the reference's a float count; both are the number of edges landing on a
  node. No finiteness of the inputs is used.
-/
import proofs.«162518_j25056839205779_2_alg».proof.Defs
import proofs.«162518_j25056839205779_2_alg».proof.Proof.Gen.Kernel
import proofs.«162518_j25056839205779_2_alg».proof.Proof.Gen.Kernel.Frame
import proofs.«162518_j25056839205779_2_alg».proof.Proof.Gen.KernelIdeal
import proofs.«162518_j25056839205779_2_alg».proof.Proof.Gen.KernelIdeal.Frame
import proofs.«162518_j25056839205779_2_alg».proof.Proof.Gen.ReferenceIdeal
import proofs.«162518_j25056839205779_2_alg».proof.Proof.Gen.Pre_finite_inputs
import proofs.«162518_j25056839205779_2_alg».proof.Proof.RefRunP
import proofs.«162518_j25056839205779_2_alg».proof.Proof.RefValue
import proofs.«162518_j25056839205779_2_alg».proof.Proof.KernelValue
import proofs.«162518_j25056839205779_2_alg».proof.Proof.Bridge
import Idealize.ShloMosaic.Adequacy
import Idealize.ShloMosaic.Init

noncomputable section

namespace Cert.Proof

open Idealize.ShloMosaic Idealize.ShloMosaic.TcCoe Idealize.SL.Sem

/-- The printed kernel runs and leaves its arguments unchanged. -/
theorem frame_kernel : Cert.frame_Kernel := fun m ρ _ => Cert.Kernel.Gen.frame m ρ
/-- The idealized kernel runs and leaves its arguments unchanged. -/
theorem frame_kernelIdeal : Cert.frame_KernelIdeal := fun m ρ _ => Cert.KernelIdeal.Gen.frame m ρ
/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories agreeing on the arguments both idealized programs end with the same result array. -/
theorem algebraic : Cert.algebraic_KernelIdeal_ReferenceIdeal := by
  intro m ρ m' ρ' _ hagree
  refine ⟨fun c => Cert.KernelIdeal.HostVal.kernelVal
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.RunValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefVal.res_eq, (hagree c).1, (hagree c).2.1, (hagree c).2.2.1, (hagree c).2.2.2]
  exact (Cert.Bridge.value_eq _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
